-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S4x64x4096 : Shape := ⟨3, ![4, 64, 4096]⟩
abbrev S4096x32 : Shape := ⟨2, ![4096, 32]⟩
abbrev S64x6 : Shape := ⟨2, ![64, 6]⟩
abbrev S64 : Shape := ⟨1, ![64]⟩
abbrev S64x64 : Shape := ⟨2, ![64, 64]⟩
abbrev S128x128 : Shape := ⟨2, ![128, 128]⟩
abbrev S128 : Shape := ⟨1, ![128]⟩
abbrev S64x128 : Shape := ⟨2, ![64, 128]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S4x64x4096 : S_.BroadcastsInDim S4x64x4096 (![] : Fin 0 → Fin S4x64x4096.rank)
  reducesTo_S4x64x4096_S_d0_1_2 : S4x64x4096.ReducesTo [0, 1, 2] S_
  bcast_S_S64x6 : S_.BroadcastsInDim S64x6 (![] : Fin 0 → Fin S64x6.rank)
  reducesTo_S64x6_S_d0_1 : S64x6.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64x128 .f32) (main_arg13 : FVec F S64 .f32) (main_arg14 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64x128 .f32 := Host.absf main_arg12
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S64 .f32) (main_arg9 : FVec F S128x128 .f32) (main_arg10 : FVec F S128 .f32) (main_arg11 : FVec F S128 .f32) (main_arg12 : FVec F S64x128 .f32) (main_arg13 : FVec F S64 .f32) (main_arg14 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S128x128 .f32) (main_arg10 : FVec F S128 .f32) (main_arg11 : FVec F S128 .f32) (main_arg12 : FVec F S64x128 .f32) (main_arg13 : FVec F S64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S4x4096x3 .f32) (main_arg1 : FVec F S4x64x4096 .f32) (main_arg2 : IVec S4096x32 32) (main_arg3 : FVec F S64x6 .f32) (main_arg4 : FVec F S64 .f32) (main_arg5 : FVec F S64 .f32) (main_arg6 : FVec F S64x64 .f32) (main_arg7 : FVec F S64 .f32) (main_arg8 : FVec F S64 .f32) (main_arg9 : FVec F S128x128 .f32) (main_arg10 : FVec F S128 .f32) (main_arg11 : FVec F S128 .f32) (main_arg12 : FVec F S64x128 .f32) (main_arg13 : FVec F S64 .f32) (main_arg14 : FVec F S64 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x64x4096 .f32 := Host.absf main_arg1
  let main_cst_0 : FVec F S_ .f32 := constant S_ .f32 0x7F800000#32
  let main_v5 : FVec F S4x64x4096 .f32 := broadcastInDim S4x64x4096 ![] bcast_S_S4x64x4096 main_cst_0
  let main_v6 : IVec S4x64x4096 1 := cmpf .olt main_v4 main_v5
  let main_c_1 : IVec S_ 1 := constantI S_ 1 1#1
  let main_v7 : IVec S_ 1 := (fun x v => Host.reduce IntOp.andi x v reducesTo_S4x64x4096_S_d0_1_2 h_S_) main_v6 main_c_1
  let main_v8 : IVec S_ 1 := andi main_v3 main_v7
  let main_v9 : FVec F S64x6 .f32 := Host.absf main_arg3
  let main_cst_2 : FVec F S_ .f32 := constant S_ .f32 0x7F800000#32
  let main_v10 : FVec F S64x6 .f32 := broadcastInDim S64x6 ![] bcast_S_S64x6 main_cst_2
  let main_v11 : IVec S64x6 1 := cmpf .olt main_v9 main_v10
  let main_c_3 : IVec S_ 1 := constantI S_ 1 1#1
  let main_v12 : IVec S_ 1 := (fun x v => Host.reduce IntOp.andi x v reducesTo_S64x6_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S4x4096x3 : Shape := ⟨3, ![4, 4096, 3]⟩
abbrev S4x64x4096 : Shape := ⟨3, ![4, 64, 4096]⟩
abbrev S4096x32 : Shape := ⟨2, ![4096, 32]⟩
abbrev S64x6 : Shape := ⟨2, ![64, 6]⟩
abbrev S64 : Shape := ⟨1, ![64]⟩
abbrev S64x64 : Shape := ⟨2, ![64, 64]⟩
abbrev S128x128 : Shape := ⟨2, ![128, 128]⟩
abbrev S128 : Shape := ⟨1, ![128]⟩
abbrev S64x128 : Shape := ⟨2, ![64, 128]⟩
abbrev S4x4096x64 : Shape := ⟨3, ![4, 4096, 64]⟩
abbrev S_ : Shape := ⟨0, ![]⟩
abbrev S4096x32x1 : Shape := ⟨3, ![4096, 32, 1]⟩
abbrev S4x4096x32x3 : Shape := ⟨4, ![4, 4096, 32, 3]⟩
abbrev S4x4096x32x64 : Shape := ⟨4, ![4, 4096, 32, 64]⟩
abbrev S4x4096x1x3 : Shape := ⟨4, ![4, 4096, 1, 3]⟩
abbrev S4x4096x32x6 : Shape := ⟨4, ![4, 4096, 32, 6]⟩
abbrev S4x4096x1x64 : Shape := ⟨4, ![4, 4096, 1, 64]⟩
abbrev S4x4096x32x70 : Shape := ⟨4, ![4, 4096, 32, 70]⟩
abbrev S4x131072x70 : Shape := ⟨3, ![4, 131072, 70]⟩
abbrev S6x64 : Shape := ⟨2, ![6, 64]⟩
abbrev S128x64 : Shape := ⟨2, ![128, 64]⟩
abbrev S1x8192x70 : Shape := ⟨3, ![1, 8192, 70]⟩
abbrev S1x64x256 : Shape := ⟨3, ![1, 64, 256]⟩
abbrev S8192x70 : Shape := ⟨2, ![8192, 70]⟩
abbrev S8192x6 : Shape := ⟨2, ![8192, 6]⟩
abbrev S8192x64 : Shape := ⟨2, ![8192, 64]⟩
abbrev S1x64 : Shape := ⟨2, ![1, 64]⟩
abbrev S8192x128 : Shape := ⟨2, ![8192, 128]⟩
abbrev S1x128 : Shape := ⟨2, ![1, 128]⟩
abbrev S256x32x128 : Shape := ⟨3, ![256, 32, 128]⟩
abbrev S256x128 : Shape := ⟨2, ![256, 128]⟩
abbrev S256x64 : Shape := ⟨2, ![256, 64]⟩
abbrev S64x256 : Shape := ⟨2, ![64, 256]⟩

abbrev nBuf : Space → Nat
  | .hbm => 50
  | .vmem => 19
  | .smem => 0
  | _ => 0

abbrev bufTy : (tb : Table) → Fin (tcTables nBuf tb) → BufTy
  | .hbm, ⟨0, _⟩ => ⟨S4x4096x3, .f32⟩
  | .hbm, ⟨1, _⟩ => ⟨S4x64x4096, .f32⟩
  | .hbm, ⟨2, _⟩ => ⟨S4096x32, .i32⟩
  | .hbm, ⟨3, _⟩ => ⟨S64x6, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S64x128, .f32⟩
  | .hbm, ⟨13, _⟩ => ⟨S64, .f32⟩
  | .hbm, ⟨14, _⟩ => ⟨S64, .f32⟩
  | .hbm, ⟨15, _⟩ => ⟨S4x4096x64, .f32⟩
  | .hbm, ⟨16, _⟩ => ⟨S_, .i32⟩
  | .hbm, ⟨17, _⟩ => ⟨S4096x32, .i32⟩
  | .hbm, ⟨18, _⟩ => ⟨S4096x32, .i1⟩
  | .hbm, ⟨19, _⟩ => ⟨S_, .i32⟩
  | .hbm, ⟨20, _⟩ => ⟨S4096x32, .i32⟩
  | .hbm, ⟨21, _⟩ => ⟨S4096x32, .i32⟩
  | .hbm, ⟨22, _⟩ => ⟨S4096x32, .i32⟩
  | .hbm, ⟨23, _⟩ => ⟨S4096x32x1, .i32⟩
  | .hbm, ⟨24, _⟩ => ⟨S4x4096x32x3, .f32⟩
  | .hbm, ⟨25, _⟩ => ⟨S_, .i32⟩
  | .hbm, ⟨26, _⟩ => ⟨S4096x32, .i32⟩
  | .hbm, ⟨27, _⟩ => ⟨S4096x32, .i1⟩
  | .hbm, ⟨28, _⟩ => ⟨S_, .i32⟩
  | .hbm, ⟨29, _⟩ => ⟨S4096x32, .i32⟩
  | .hbm, ⟨30, _⟩ => ⟨S4096x32, .i32⟩
  | .hbm, ⟨31, _⟩ => ⟨S4096x32, .i32⟩
  | .hbm, ⟨32, _⟩ => ⟨S4096x32x1, .i32⟩
  | .hbm, ⟨33, _⟩ => ⟨S4x4096x32x64, .f32⟩
  | .hbm, ⟨34, _⟩ => ⟨S4x4096x1x3, .f32⟩
  | .hbm, ⟨35, _⟩ => ⟨S4x4096x32x3, .f32⟩
  | .hbm, ⟨36, _⟩ => ⟨S4x4096x32x6, .f32⟩
  | .hbm, ⟨37, _⟩ => ⟨S4x4096x1x64, .f32⟩
  | .hbm, ⟨38, _⟩ => ⟨S4x4096x32x64, .f32⟩
  | .hbm, ⟨39, _⟩ => ⟨S4x4096x32x64, .f32⟩
  | .hbm, ⟨40, _⟩ => ⟨S4x4096x32x70, .f32⟩
  | .hbm, ⟨41, _⟩ => ⟨S4x4096x32x70, .bf16⟩
  | .hbm, ⟨42, _⟩ => ⟨S4x131072x70, .bf16⟩
  | .hbm, ⟨43, _⟩ => ⟨S6x64, .f32⟩
  | .hbm, ⟨44, _⟩ => ⟨S64x64, .f32⟩
  | .hbm, ⟨45, _⟩ => ⟨S128x128, .f32⟩
  | .hbm, ⟨46, _⟩ => ⟨S64x128, .f32⟩
  | .hbm, ⟨47, _⟩ => ⟨S64x128, .f32⟩
  | .hbm, ⟨48, _⟩ => ⟨S128x64, .f32⟩
  | .hbm, ⟨49, _⟩ => ⟨S4x64x4096, .f32⟩
  | .local _ .vmem, ⟨0, _⟩ => ⟨S1x8192x70, .bf16⟩
  | .local _ .vmem, ⟨1, _⟩ => ⟨S1x8192x70, .bf16⟩
  | .local _ .vmem, ⟨2, _⟩ => ⟨S1x64x256, .f32⟩
  | .local _ .vmem, ⟨3, _⟩ => ⟨S1x64x256, .f32⟩
  | .local _ .vmem, ⟨4, _⟩ => ⟨S6x64, .f32⟩
  | .local _ .vmem, ⟨5, _⟩ => ⟨S64, .f32⟩
  | .local _ .vmem, ⟨6, _⟩ => ⟨S64, .f32⟩
  | .local _ .vmem, ⟨7, _⟩ => ⟨S64x64, .f32⟩
  | .local _ .vmem, ⟨8, _⟩ => ⟨S64, .f32⟩
  | .local _ .vmem, ⟨9, _⟩ => ⟨S64, .f32⟩
  | .local _ .vmem, ⟨10, _⟩ => ⟨S64x128, .f32⟩
  | .local _ .vmem, ⟨11, _⟩ => ⟨S64x128, .f32⟩
  | .local _ .vmem, ⟨12, _⟩ => ⟨S128, .f32⟩
  | .local _ .vmem, ⟨13, _⟩ => ⟨S128, .f32⟩
  | .local _ .vmem, ⟨14, _⟩ => ⟨S128x64, .f32⟩
  | .local _ .vmem, ⟨15, _⟩ => ⟨S64, .f32⟩
  | .local _ .vmem, ⟨16, _⟩ => ⟨S64, .f32⟩
  | .local _ .vmem, ⟨17, _⟩ => ⟨S1x64x256, .f32⟩
  | .local _ .vmem, ⟨18, _⟩ => ⟨S1x64x256, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x70 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

class Facts₀ : Prop where
  transposes_S4x64x4096_S4x4096x64_0_2_1 : S4x64x4096.Transposes [0, 2, 1] S4x4096x64
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  bcast_S4x4096x3_S4x4096x1x3_0_1_3 : S4x4096x3.BroadcastsInDim S4x4096x1x3 (![0, 1, 3] : Fin 3 → Fin S4x4096x1x3.rank)
  bcast_S4x4096x1x3_S4x4096x32x3_0_1_2_3 : S4x4096x1x3.BroadcastsInDim S4x4096x32x3 (![0, 1, 2, 3] : Fin 4 → Fin S4x4096x32x3.rank)
  concatenates_S4x4096x32x3_S4x4096x32x3_S4x4096x32x6_d3 : Shape.Concatenates [S4x4096x32x3, S4x4096x32x3] S4x4096x32x6 3
  bcast_S4x4096x64_S4x4096x1x64_0_1_3 : S4x4096x64.BroadcastsInDim S4x4096x1x64 (![0, 1, 3] : Fin 3 → Fin S4x4096x1x64.rank)
  bcast_S4x4096x1x64_S4x4096x32x64_0_1_2_3 : S4x4096x1x64.BroadcastsInDim S4x4096x32x64 (![0, 1, 2, 3] : Fin 4 → Fin S4x4096x32x64.rank)
  concatenates_S4x4096x32x6_S4x4096x32x64_S4x4096x32x70_d3 : Shape.Concatenates [S4x4096x32x6, S4x4096x32x64] S4x4096x32x70 3
  bitsLt_bf16_f32 : FTy.bits .bf16 < FTy.bits .f32
  shapeCasts_S4x4096x32x70_S4x131072x70 : S4x4096x32x70.ShapeCasts S4x131072x70
  transposes_S64x6_S6x64_1_0 : S64x6.Transposes [1, 0] S6x64
  transposes_S64x64_S64x64_1_0 : S64x64.Transposes [1, 0] S64x64
  transposes_S128x128_S128x128_1_0 : S128x128.Transposes [1, 0] S128x128
  slices_S128x128_S64x128_0_0 : S128x128.Slices ![0, 0] S64x128
  slices_S128x128_S64x128_64_0 : S128x128.Slices ![64, 0] S64x128
  transposes_S64x128_S128x64_1_0 : S64x128.Transposes [1, 0] S128x64
  inb_S1x8192x70_S1x8192x70_0_0_0 : ∀ a, (![0, 0, 0] : Fin 3 → Nat) a + S1x8192x70.size a ≤ S1x8192x70.size a
  h_S1x8192x70 : 0 < S1x8192x70.numel
  shapeCasts_S1x8192x70_S8192x70 : S1x8192x70.ShapeCasts S8192x70
  slices_S8192x70_o0_0_S8192x6 : S8192x70.Slices ![0, 0] S8192x6
  slices_S8192x70_o0_6_S8192x64 : S8192x70.Slices ![0, 6] S8192x64
  inb_S6x64_S6x64_0_0 : ∀ a, (![0, 0] : Fin 2 → Nat) a + S6x64.size a ≤ S6x64.size a
  h_S6x64 : 0 < S6x64.numel
  shapeCasts_S6x64_S6x64 : S6x64.ShapeCasts S6x64
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  shapeCasts_S8192x128_S256x32x128 : S8192x128.ShapeCasts S256x32x128
  reduces_S256x32x128_S256x128 : S256x32x128.Reduces [1] S256x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S256x64 : S1x64.Broadcasts S256x64
  transposes_S256x64_p1_0_S64x256 : S256x64.Transposes [1, 0] S64x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  gather_S4x4096x3_S4096x32x1_S4x4096x32x3_03_1_n_n_1_2_413_wf : GatherDims.WF S4x4096x3 S4096x32x1 S4x4096x32x3 [0, 3] [1] [] [1] [] 2 ![4, 1, 3]
  gather_S4x4096x64_S4096x32x1_S4x4096x32x64_03_1_n_n_1_2_4164_wf : GatherDims.WF S4x4096x64 S4096x32x1 S4x4096x32x64 [0, 3] [1] [] [1] [] 2 ![4, 1, 64]
  dot_S8192x6_S6x64_S8192x64_1_0_0_1_n_n_wf : DotDims.WF S8192x6 S6x64 S8192x64 [1] [0] [0] [1] [] []
  dot_S8192x64_S64x64_S8192x64_1_0_0_1_n_n_wf : DotDims.WF S8192x64 S64x64 S8192x64 [1] [0] [0] [1] [] []
  dot_S8192x64_S64x128_S8192x128_1_0_0_1_n_n_wf : DotDims.WF S8192x64 S64x128 S8192x128 [1] [0] [0] [1] [] []
  dot_S256x128_S128x64_S256x64_1_0_0_1_n_n_wf : DotDims.WF S256x128 S128x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x70.size a ≤ S4x131072x70.size a
  hwx0_0 : ∀ i : grid0.Coords, EltTy.bits .bf16 = 32 ∨ (Rect.block (s := S4x131072x70) S1x8192x70.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S4x64x4096.size a
  hwx0_1 : ∀ i : grid0.Coords, EltTy.bits .f32 = 32 ∨ (Rect.block (s := S4x64x4096) S1x64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x64.size a ≤ S6x64.size a
  hwx0_2 : ∀ i : grid0.Coords, EltTy.bits .f32 = 32 ∨ (Rect.block (s := S6x64) S6x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .f32 = 32 ∨ (Rect.block (s := S64x128) S64x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .f32 = 32 ∨ (Rect.block (s := S64x128) S64x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x64.size a ≤ S128x64.size a
  hwx0_12 : ∀ i : grid0.Coords, EltTy.bits .f32 = 32 ∨ (Rect.block (s := S128x64) S128x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64.size a ≤ S64.size a
  hwx0_13 : ∀ i : grid0.Coords, EltTy.bits .f32 = 32 ∨ (Rect.block (s := S64) S64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x64x256.size a ≤ S4x64x4096.size a
  hwx0_15 : ∀ i : grid0.Coords, EltTy.bits .f32 = 32 ∨ (Rect.block (s := S4x64x4096) S1x64x256.size (cc0_transform_15 i) (hinb0_15 i)).WholeWords (EltTy.packing .f32)

variable [Facts₀]

def gather_S4x4096x3_S4096x32x1_S4x4096x32x3_03_1_n_n_1_2_413 : GatherDims S4x4096x3 S4096x32x1 S4x4096x32x3 where
  offsetDims := [0, 3]
  collapsedSliceDims := [1]
  operandBatchingDims := []
  startIndicesBatchingDims := []
  startIndexMap := [1]
  indexVectorDim := 2
  sliceSizes := ![4, 1, 3]
  wf := gather_S4x4096x3_S4096x32x1_S4x4096x32x3_03_1_n_n_1_2_413_wf
def gather_S4x4096x64_S4096x32x1_S4x4096x32x64_03_1_n_n_1_2_4164 : GatherDims S4x4096x64 S4096x32x1 S4x4096x32x64 where
  offsetDims := [0, 3]
  collapsedSliceDims := [1]
  operandBatchingDims := []
  startIndicesBatchingDims := []
  startIndexMap := [1]
  indexVectorDim := 2
  sliceSizes := ![4, 1, 64]
  wf := gather_S4x4096x64_S4096x32x1_S4x4096x32x64_03_1_n_n_1_2_4164_wf
def dot_S8192x6_S6x64_S8192x64_1_0_0_1_n_n : DotDims S8192x6 S6x64 S8192x64 where
  lhsContracting := [1]
  rhsContracting := [0]
  lhsNonContracting := [0]
  rhsNonContracting := [1]
  lhsBatch := []
  rhsBatch := []
  wf := dot_S8192x6_S6x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf

abbrev win0_0 : Pipeline.Window sig grid0 :=
  Pipeline.Window.ofSpec (Memref.whole main_v23) S1x8192x70.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S6x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S64x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v29) S128x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v30) S1x64x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S4x64x4096 : Shape := ⟨3, ![4, 64, 4096]⟩
abbrev S4096x32 : Shape := ⟨2, ![4096, 32]⟩
abbrev S64x6 : Shape := ⟨2, ![64, 6]⟩
abbrev S64 : Shape := ⟨1, ![64]⟩
abbrev S64x64 : Shape := ⟨2, ![64, 64]⟩
abbrev S128x128 : Shape := ⟨2, ![128, 128]⟩
abbrev S128 : Shape := ⟨1, ![128]⟩
abbrev S64x128 : Shape := ⟨2, ![64, 128]⟩
abbrev S4x4096x64 : Shape := ⟨3, ![4, 4096, 64]⟩
abbrev S_ : Shape := ⟨0, ![]⟩
abbrev S4096x32x1 : Shape := ⟨3, ![4096, 32, 1]⟩
abbrev S4x4096x32x3 : Shape := ⟨4, ![4, 4096, 32, 3]⟩
abbrev S4x4096x32x64 : Shape := ⟨4, ![4, 4096, 32, 64]⟩
abbrev S4x4096x1x3 : Shape := ⟨4, ![4, 4096, 1, 3]⟩
abbrev S4x4096x32x6 : Shape := ⟨4, ![4, 4096, 32, 6]⟩
abbrev S4x4096x1x64 : Shape := ⟨4, ![4, 4096, 1, 64]⟩
abbrev S1x1x1x64 : Shape := ⟨4, ![1, 1, 1, 64]⟩
abbrev S4x4096x32x128 : Shape := ⟨4, ![4, 4096, 32, 128]⟩
abbrev S1x1x1x128 : Shape := ⟨4, ![1, 1, 1, 128]⟩
abbrev S4x4096x128 : Shape := ⟨3, ![4, 4096, 128]⟩
abbrev S1x1x64 : Shape := ⟨3, ![1, 1, 64]⟩

abbrev nBuf : Space → Nat
  | .hbm => 88
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x64x4096, .f32⟩
  | .hbm, ⟨2, _⟩ => ⟨S4096x32, .i32⟩
  | .hbm, ⟨3, _⟩ => ⟨S64x6, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S64x128, .f32⟩
  | .hbm, ⟨13, _⟩ => ⟨S64, .f32⟩
  | .hbm, ⟨14, _⟩ => ⟨S64, .f32⟩
  | .hbm, ⟨15, _⟩ => ⟨S4x4096x64, .f32⟩
  | .hbm, ⟨16, _⟩ => ⟨S_, .i32⟩
  | .hbm, ⟨17, _⟩ => ⟨S4096x32, .i32⟩
  | .hbm, ⟨18, _⟩ => ⟨S4096x32, .i1⟩
  | .hbm, ⟨19, _⟩ => ⟨S_, .i32⟩
  | .hbm, ⟨20, _⟩ => ⟨S4096x32, .i32⟩
  | .hbm, ⟨21, _⟩ => ⟨S4096x32, .i32⟩
  | .hbm, ⟨22, _⟩ => ⟨S4096x32, .i32⟩
  | .hbm, ⟨23, _⟩ => ⟨S4096x32x1, .i32⟩
  | .hbm, ⟨24, _⟩ => ⟨S4x4096x32x3, .f32⟩
  | .hbm, ⟨25, _⟩ => ⟨S_, .i32⟩
  | .hbm, ⟨26, _⟩ => ⟨S4096x32, .i32⟩
  | .hbm, ⟨27, _⟩ => ⟨S4096x32, .i1⟩
  | .hbm, ⟨28, _⟩ => ⟨S_, .i32⟩
  | .hbm, ⟨29, _⟩ => ⟨S4096x32, .i32⟩
  | .hbm, ⟨30, _⟩ => ⟨S4096x32, .i32⟩
  | .hbm, ⟨31, _⟩ => ⟨S4096x32, .i32⟩
  | .hbm, ⟨32, _⟩ => ⟨S4096x32x1, .i32⟩
  | .hbm, ⟨33, _⟩ => ⟨S4x4096x32x64, .f32⟩
  | .hbm, ⟨34, _⟩ => ⟨S4x4096x1x3, .f32⟩
  | .hbm, ⟨35, _⟩ => ⟨S4x4096x32x3, .f32⟩
  | .hbm, ⟨36, _⟩ => ⟨S4x4096x32x6, .f32⟩
  | .hbm, ⟨37, _⟩ => ⟨S4x4096x1x64, .f32⟩
  | .hbm, ⟨38, _⟩ => ⟨S4x4096x32x64, .f32⟩
  | .hbm, ⟨39, _⟩ => ⟨S4x4096x32x64, .f32⟩
  | .hbm, ⟨40, _⟩ => ⟨S4x4096x32x64, .f32⟩
  | .hbm, ⟨41, _⟩ => ⟨S1x1x1x64, .f32⟩
  | .hbm, ⟨42, _⟩ => ⟨S4x4096x32x64, .f32⟩
  | .hbm, ⟨43, _⟩ => ⟨S4x4096x32x64, .f32⟩
  | .hbm, ⟨44, _⟩ => ⟨S1x1x1x64, .f32⟩
  | .hbm, ⟨45, _⟩ => ⟨S4x4096x32x64, .f32⟩
  | .hbm, ⟨46, _⟩ => ⟨S4x4096x32x64, .f32⟩
  | .hbm, ⟨47, _⟩ => ⟨S_, .f32⟩
  | .hbm, ⟨48, _⟩ => ⟨S4x4096x32x64, .f32⟩
  | .hbm, ⟨49, _⟩ => ⟨S4x4096x32x64, .f32⟩
  | .hbm, ⟨50, _⟩ => ⟨S4x4096x32x64, .f32⟩
  | .hbm, ⟨51, _⟩ => ⟨S1x1x1x64, .f32⟩
  | .hbm, ⟨52, _⟩ => ⟨S4x4096x32x64, .f32⟩
  | .hbm, ⟨53, _⟩ => ⟨S4x4096x32x64, .f32⟩
  | .hbm, ⟨54, _⟩ => ⟨S1x1x1x64, .f32⟩
  | .hbm, ⟨55, _⟩ => ⟨S4x4096x32x64, .f32⟩
  | .hbm, ⟨56, _⟩ => ⟨S4x4096x32x64, .f32⟩
  | .hbm, ⟨57, _⟩ => ⟨S_, .f32⟩
  | .hbm, ⟨58, _⟩ => ⟨S4x4096x32x64, .f32⟩
  | .hbm, ⟨59, _⟩ => ⟨S4x4096x32x64, .f32⟩
  | .hbm, ⟨60, _⟩ => ⟨S4x4096x32x128, .f32⟩
  | .hbm, ⟨61, _⟩ => ⟨S4x4096x32x128, .f32⟩
  | .hbm, ⟨62, _⟩ => ⟨S1x1x1x128, .f32⟩
  | .hbm, ⟨63, _⟩ => ⟨S4x4096x32x128, .f32⟩
  | .hbm, ⟨64, _⟩ => ⟨S4x4096x32x128, .f32⟩
  | .hbm, ⟨65, _⟩ => ⟨S1x1x1x128, .f32⟩
  | .hbm, ⟨66, _⟩ => ⟨S4x4096x32x128, .f32⟩
  | .hbm, ⟨67, _⟩ => ⟨S4x4096x32x128, .f32⟩
  | .hbm, ⟨68, _⟩ => ⟨S_, .f32⟩
  | .hbm, ⟨69, _⟩ => ⟨S4x4096x32x128, .f32⟩
  | .hbm, ⟨70, _⟩ => ⟨S4x4096x32x128, .f32⟩
  | .hbm, ⟨71, _⟩ => ⟨S_, .f32⟩
  | .hbm, ⟨72, _⟩ => ⟨S4x4096x128, .f32⟩
  | .hbm, ⟨73, _⟩ => ⟨S_, .f32⟩
  | .hbm, ⟨74, _⟩ => ⟨S4x4096x128, .f32⟩
  | .hbm, ⟨75, _⟩ => ⟨S4x4096x128, .f32⟩
  | .hbm, ⟨76, _⟩ => ⟨S4x4096x64, .f32⟩
  | .hbm, ⟨77, _⟩ => ⟨S1x1x64, .f32⟩
  | .hbm, ⟨78, _⟩ => ⟨S4x4096x64, .f32⟩
  | .hbm, ⟨79, _⟩ => ⟨S4x4096x64, .f32⟩
  | .hbm, ⟨80, _⟩ => ⟨S1x1x64, .f32⟩
  | .hbm, ⟨81, _⟩ => ⟨S4x4096x64, .f32⟩
  | .hbm, ⟨82, _⟩ => ⟨S4x4096x64, .f32⟩
  | .hbm, ⟨83, _⟩ => ⟨S_, .f32⟩
  | .hbm, ⟨84, _⟩ => ⟨S4x4096x64, .f32⟩
  | .hbm, ⟨85, _⟩ => ⟨S4x4096x64, .f32⟩
  | .hbm, ⟨86, _⟩ => ⟨S4x64x4096, .f32⟩
  | .hbm, ⟨87, _⟩ => ⟨S4x64x4096, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_cst : Ref sig .tc := ⟨.hbm, 47, rfl⟩
abbrev main_call0_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_cst : Ref sig .tc := ⟨.hbm, 57, rfl⟩
abbrev main_call1_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call2_cst : Ref sig .tc := ⟨.hbm, 68, rfl⟩
abbrev main_call2_v0 : Ref sig .tc := ⟨.hbm, 69, rfl⟩
abbrev main_v45 : Ref sig .tc := ⟨.hbm, 70, rfl⟩
abbrev main_cst : Ref sig .tc := ⟨.hbm, 71, rfl⟩
abbrev main_v46 : Ref sig .tc := ⟨.hbm, 72, rfl⟩
abbrev main_cst_3 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call3_cst : Ref sig .tc := ⟨.hbm, 83, rfl⟩
abbrev main_call3_v0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩

abbrev nD : Nat := 1
abbrev τ : Topo := Topo.v7x

variable {F : FTy → Type} [FloatOps F]

class Facts₀ : Prop where
  transposes_S4x64x4096_S4x4096x64_0_2_1 : S4x64x4096.Transposes [0, 2, 1] S4x4096x64
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  bcast_S4x4096x3_S4x4096x1x3_0_1_3 : S4x4096x3.BroadcastsInDim S4x4096x1x3 (![0, 1, 3] : Fin 3 → Fin S4x4096x1x3.rank)
  bcast_S4x4096x1x3_S4x4096x32x3_0_1_2_3 : S4x4096x1x3.BroadcastsInDim S4x4096x32x3 (![0, 1, 2, 3] : Fin 4 → Fin S4x4096x32x3.rank)
  concatenates_S4x4096x32x3_S4x4096x32x3_S4x4096x32x6_d3 : Shape.Concatenates [S4x4096x32x3, S4x4096x32x3] S4x4096x32x6 3
  bcast_S4x4096x64_S4x4096x1x64_0_1_3 : S4x4096x64.BroadcastsInDim S4x4096x1x64 (![0, 1, 3] : Fin 3 → Fin S4x4096x1x64.rank)
  bcast_S4x4096x1x64_S4x4096x32x64_0_1_2_3 : S4x4096x1x64.BroadcastsInDim S4x4096x32x64 (![0, 1, 2, 3] : Fin 4 → Fin S4x4096x32x64.rank)
  bcast_S64_S1x1x1x64_3 : S64.BroadcastsInDim S1x1x1x64 (![3] : Fin 1 → Fin S1x1x1x64.rank)
  bcast_S1x1x1x64_S4x4096x32x64_0_1_2_3 : S1x1x1x64.BroadcastsInDim S4x4096x32x64 (![0, 1, 2, 3] : Fin 4 → Fin S4x4096x32x64.rank)
  bcast_S_S4x4096x32x64 : S_.BroadcastsInDim S4x4096x32x64 (![] : Fin 0 → Fin S4x4096x32x64.rank)
  concatenates_S4x4096x32x64_S4x4096x32x64_S4x4096x32x128_d3 : Shape.Concatenates [S4x4096x32x64, S4x4096x32x64] S4x4096x32x128 3
  bcast_S128_S1x1x1x128_3 : S128.BroadcastsInDim S1x1x1x128 (![3] : Fin 1 → Fin S1x1x1x128.rank)
  bcast_S1x1x1x128_S4x4096x32x128_0_1_2_3 : S1x1x1x128.BroadcastsInDim S4x4096x32x128 (![0, 1, 2, 3] : Fin 4 → Fin S4x4096x32x128.rank)
  bcast_S_S4x4096x32x128 : S_.BroadcastsInDim S4x4096x32x128 (![] : Fin 0 → Fin S4x4096x32x128.rank)
  reducesTo_S4x4096x32x128_S4x4096x128_d2 : S4x4096x32x128.ReducesTo [2] S4x4096x128
  h_S_ : 0 < S_.numel
  bcast_S_S4x4096x128 : S_.BroadcastsInDim S4x4096x128 (![] : Fin 0 → Fin S4x4096x128.rank)
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x64 : S_.BroadcastsInDim S4x4096x64 (![] : Fin 0 → Fin S4x4096x64.rank)
  transposes_S4x4096x64_S4x64x4096_0_2_1 : S4x4096x64.Transposes [0, 2, 1] S4x64x4096
  gather_S4x4096x3_S4096x32x1_S4x4096x32x3_03_1_n_n_1_2_413_wf : GatherDims.WF S4x4096x3 S4096x32x1 S4x4096x32x3 [0, 3] [1] [] [1] [] 2 ![4, 1, 3]
  gather_S4x4096x64_S4096x32x1_S4x4096x32x64_03_1_n_n_1_2_4164_wf : GatherDims.WF S4x4096x64 S4096x32x1 S4x4096x32x64 [0, 3] [1] [] [1] [] 2 ![4, 1, 64]
  dot_S4x4096x32x6_S64x6_S4x4096x32x64_3_1_012_0_n_n_wf : DotDims.WF S4x4096x32x6 S64x6 S4x4096x32x64 [3] [1] [0, 1, 2] [0] [] []
  dot_S4x4096x32x64_S64x64_S4x4096x32x64_3_1_012_0_n_n_wf : DotDims.WF S4x4096x32x64 S64x64 S4x4096x32x64 [3] [1] [0, 1, 2] [0] [] []
  dot_S4x4096x32x128_S128x128_S4x4096x32x128_3_1_012_0_n_n_wf : DotDims.WF S4x4096x32x128 S128x128 S4x4096x32x128 [3] [1] [0, 1, 2] [0] [] []
  dot_S4x4096x128_S64x128_S4x4096x64_2_1_01_0_n_n_wf : DotDims.WF S4x4096x128 S64x128 S4x4096x64 [2] [1] [0, 1] [0] [] []

variable [Facts₀]

def gather_S4x4096x3_S4096x32x1_S4x4096x32x3_03_1_n_n_1_2_413 : GatherDims S4x4096x3 S4096x32x1 S4x4096x32x3 where
  offsetDims := [0, 3]
  collapsedSliceDims := [1]
  operandBatchingDims := []
  startIndicesBatchingDims := []
  startIndexMap := [1]
  indexVectorDim := 2
  sliceSizes := ![4, 1, 3]
  wf := gather_S4x4096x3_S4096x32x1_S4x4096x32x3_03_1_n_n_1_2_413_wf
def gather_S4x4096x64_S4096x32x1_S4x4096x32x64_03_1_n_n_1_2_4164 : GatherDims S4x4096x64 S4096x32x1 S4x4096x32x64 where
  offsetDims := [0, 3]
  collapsedSliceDims := [1]
  operandBatchingDims := []
  startIndicesBatchingDims := []
  startIndexMap := [1]
  indexVectorDim := 2
  sliceSizes := ![4, 1, 64]
  wf := gather_S4x4096x64_S4096x32x1_S4x4096x32x64_03_1_n_n_1_2_4164_wf
def dot_S4x4096x32x6_S64x6_S4x4096x32x64_3_1_012_0_n_n : DotDims S4x4096x32x6 S64x6 S4x4096x32x64 where
  lhsContracting := [3]
  rhsContracting := [1]
  lhsNonContracting := [0, 1, 2]
  rhsNonContracting := [0]
  lhsBatch := []
  rhsBatch := []
  wf := dot_S4x4096x32x6_S64x6_S4x4096x32x64_3_1_012_0_n_n_wf
def dot_S4x4096x32x64_S64x64_S4x4096x32x64_3_1_012_0_n_n : DotDims S4x4096x32x64 S64x64 S4x4096x32x64 where
  lhsContracting := [3]
  rhsContracting := [1]
  lhsNonContracting := [0, 1, 2]
  rhsNonContracting := [0]
  lhsBatch := []
  rhsBatch := []
  wf := dot_S4x4096x32x64_S64x64_S4x4096x32x64_3_1_012_0_n_n_wf
def dot_S4x4096x32x128_S128x128_S4x4096x32x128_3_1_012_0_n_n : DotDims S4x4096x32x128 S128x128 S4x4096x32x128 where
  lhsContracting := [3]
  rhsContracting := [1]
  lhsNonContracting := [0, 1, 2]
  rhsNonContracting := [0]
  lhsBatch := []
  rhsBatch := []
  wf := dot_S4x4096x32x128_S128x128_S4x4096x32x128_3_1_012_0_n_n_wf
def dot_S4x4096x128_S64x128_S4x4096x64_2_1_01_0_n_n : DotDims S4x4096x128 S64x128 S4x4096x64 where
  lhsContracting := [2]
  rhsContracting := [1]
  lhsNonContracting := [0, 1]
  rhsNonContracting := [0]
  lhsBatch := []
  rhsBatch := []
  wf := dot_S4x4096x128_S64x128_S4x4096x64_2_1_01_0_n_n_wf

class Facts : Prop extends Facts₀ where

variable [Facts]
-- ==== Proof.Spec.lean ====
/-
  What the network computes for ONE point of the cloud, on the extended reals.

  A point has 32 neighbours. Neighbour k carries a relation row: six geometric numbers xz k (the point's own
  coordinates and the neighbour's) and 64 feature numbers ft k (the neighbour's features plus the point's own).
  Four shared layers follow, each of the form  z ↦ max (z · s + b) 0  applied to a product with a weight matrix:
    geo k o  = act (Σ_e xz k e · Wgu o e)                         the geometric branch, 64 units
    sem k o  = act (Σ_e ft k e · Wgv o e)                         the feature branch, 64 units
    hid k d  = act (Σ_e geo k e · Wh d e  +  Σ_e sem k e · Wh d (64 + e))    the fused layer, 128 units:
               the product of the 128-wide row [geo k, sem k] with row d of Wh, its sum cut in two halves
    pooled d = (Σ_k hid k d) / 32                                 the mean over the neighbours
    out c    = act (Σ_d pooled d · Wf c d)                        the last layer, 64 units.
  The sums are finite sums of extended reals; addition there is commutative and associative, which is all that the
  cut of the 128-term sum into its two halves uses (`sum_halves`).
-/
import Idealize.ShloMosaic.Lib.ValueIdx
import Idealize.ShloMosaic.PureOps.Ideal.Laws

noncomputable section

namespace Cert.Srn

open Idealize.ShloMosaic Idealize.ShloMosaic.ValueIdx

/-- One unit of a shared layer: the product z scaled by s, shifted by b, and clipped below at zero. -/
def act (z s b : EReal) : EReal := max (z * s + b) (Ideal.ofBits .f32 0x00000000#32)

/-- Column e of the first half of a 128-wide row. -/
def lo (e : Fin 64) : Fin 128 := ⟨e.val, Nat.lt_of_lt_of_le e.isLt (by decide)⟩
/-- Column 64 + e, in the second half. -/
def hi (e : Fin 64) : Fin 128 := ⟨64 + e.val, by have := e.isLt; omega⟩

/-- A sum over 128 columns is the sum over the first 64 plus the sum over the last 64. -/
theorem sum_halves {M : Type} [AddCommMonoid M] (f : Fin 128 → M) :
    ∑ e : Fin 128, f e = (∑ e : Fin 64, f (lo e)) + ∑ e : Fin 64, f (hi e) :=
  Fin.sum_univ_add (a := 64) (b := 64) f

section Point

variable (xz : Fin 32 → Fin 6 → EReal) (ft : Fin 32 → Fin 64 → EReal)
  (Wgu : Fin 64 → Fin 6 → EReal) (sgu bgu : Fin 64 → EReal)
  (Wgv : Fin 64 → Fin 64 → EReal) (sgv bgv : Fin 64 → EReal)
  (Wh : Fin 128 → Fin 128 → EReal) (sh bh : Fin 128 → EReal)
  (Wf : Fin 64 → Fin 128 → EReal) (sf bf : Fin 64 → EReal)

/-- The geometric branch at neighbour k, unit o. -/
def geo (k : Fin 32) (o : Fin 64) : EReal := act (∑ e : Fin 6, xz k e * Wgu o e) (sgu o) (bgu o)

/-- The feature branch at neighbour k, unit o. -/
def sem (k : Fin 32) (o : Fin 64) : EReal := act (∑ e : Fin 64, ft k e * Wgv o e) (sgv o) (bgv o)

/-- The fused layer at neighbour k, unit d: the two branches side by side against row d of Wh. -/
def hid (k : Fin 32) (d : Fin 128) : EReal :=
  act ((∑ e : Fin 64, geo xz Wgu sgu bgu k e * Wh d (lo e)) + ∑ e : Fin 64, sem ft Wgv sgv bgv k e * Wh d (hi e))
    (sh d) (bh d)

/-- The mean of the fused layer over the 32 neighbours. -/
def pooled (d : Fin 128) : EReal :=
  Ideal.div (∑ k : Fin 32, hid xz ft Wgu sgu bgu Wgv sgv bgv Wh sh bh k d) (Ideal.ofBits .f32 0x42000000#32)

/-- The point's output at channel c. -/
def pointOut (c : Fin 64) : EReal :=
  act (∑ d : Fin 128, pooled xz ft Wgu sgu bgu Wgv sgv bgv Wh sh bh d * Wf c d) (sf c) (bf c)

end Point

/-- The whole result array: entry (b, c, p) is point p of batch b at channel c, plus the input feature there
    (the residual). RX and RF are the relation tensor's two parts, [batch, point, neighbour, column]. -/
def G (RX : (⟨4, ![4, 4096, 32, 6]⟩ : Shape).Idx → EReal) (RF : (⟨4, ![4, 4096, 32, 64]⟩ : Shape).Idx → EReal)
    (Wgu : (⟨2, ![64, 6]⟩ : Shape).Idx → EReal) (sgu bgu : (⟨1, ![64]⟩ : Shape).Idx → EReal)
    (Wgv : (⟨2, ![64, 64]⟩ : Shape).Idx → EReal) (sgv bgv : (⟨1, ![64]⟩ : Shape).Idx → EReal)
    (Wh : (⟨2, ![128, 128]⟩ : Shape).Idx → EReal) (sh bh : (⟨1, ![128]⟩ : Shape).Idx → EReal)
    (Wf : (⟨2, ![64, 128]⟩ : Shape).Idx → EReal) (sf bf : (⟨1, ![64]⟩ : Shape).Idx → EReal)
    (feat : (⟨3, ![4, 64, 4096]⟩ : Shape).Idx → EReal) : (⟨3, ![4, 64, 4096]⟩ : Shape).Idx → EReal :=
  fun i =>
    pointOut (fun k e => RX (ix4 (i 0) (i 2) k e)) (fun k e => RF (ix4 (i 0) (i 2) k e))
      (fun o e => Wgu (ix2 o e)) (fun o => sgu (ix1 o)) (fun o => bgu (ix1 o))
      (fun o e => Wgv (ix2 o e)) (fun o => sgv (ix1 o)) (fun o => bgv (ix1 o))
      (fun d e => Wh (ix2 d e)) (fun d => sh (ix1 d)) (fun d => bh (ix1 d))
      (fun c d => Wf (ix2 c d)) (fun c => sf (ix1 c)) (fun c => bf (ix1 c)) (i 1)
    + feat i

end Cert.Srn

end
-- ==== Proof.LibMergeRows.lean ====
/-
  Two leading axes merged into one by a shape cast, and split again.

  An array of shape [a, b, c] and the matrix of shape [a·b, c] with the same elements in the same row-major order
  are related by  row = i·b + j : entry (i, j, k) of the array is entry (i·b + j, k) of the matrix. Both casts
  are read here at coordinates, with the row given by that equation.
-/
import Idealize.ShloMosaic.Lib.ValueIdx
import Idealize.ShloMosaic.Lib.Pipeline.Value

noncomputable section

namespace Cert.Lib.MergeRows

open Idealize.ShloMosaic Idealize.ShloMosaic.ValueIdx

variable {α : Type}

/-- An [a, b, c] array cast to [n, c] reads, at (r, k) with r = i·b + j, the array at (i, j, k). -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An [n, c] matrix cast to [a, b, c] reads, at (i, j, k), the matrix at (r, k) with r = i·b + j. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Cert.Lib.MergeRows

end
-- ==== Proof.Layers.lean ====
/-
  The operations a kernel body and the host use to lay data out and to apply one shared layer, each read at
  coordinates on the extended reals.

  * scale–shift–clip: a matrix Z, a scale vector s and a shift vector b spread over the rows, then the maximum
    with zero, read at (r, o) as  max (Z r o · s o + b o) 0;
  * the mean over groups of consecutive rows: an [n, D] matrix regrouped as [P, K, D] (row r = j·K + k), summed
    over the middle axis and divided by a constant, read at (j, d) as (Σ_k H (j·K + k, d)) / w;
  * two rank-4 arrays joined along their last axis, read on either side of the seam;
  * the two middle axes of a rank-4 array merged into one (row r = j·c + k).
-/
import Idealize.ShloMosaic.Lib.ValueLayout
import proofs.«165472_j48026324303943_2_alg».proof.Proof.Spec
import proofs.«165472_j48026324303943_2_alg».proof.Proof.LibMergeRows

noncomputable section

namespace Cert.Srn

open Idealize.ShloMosaic Idealize.ShloMosaic.ValueIdx

/-- A matrix Z scaled by a row s, shifted by a row b (both spread over the rows) and clipped below at zero, at
    (r, o). -/
theorem affineRelu_apply {M N : ℕ} (Z : FVec Ideal ⟨2, ![M, N]⟩ .f32) (s b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (r : Fin M) (o : Fin N) :
    maximumf (addf (mulf Z (broadcastTo ⟨2, ![M, N]⟩ (shapeCast ⟨2, ![1, N]⟩ s h1) h2))
        (broadcastTo ⟨2, ![M, N]⟩ (shapeCast ⟨2, ![1, N]⟩ b h1) h2))
      (broadcast ⟨2, ![M, N]⟩ (Scalar.ofBits .f32 0x00000000#32)) (ix2 r o)
    = act (Z (ix2 r o)) (s (ix1 o)) (b (ix1 o)) := by
  rw [maximumf_apply, addf_apply, mulf_apply, broadcast_apply, broadcastTo_1b_ab_apply, broadcastTo_1b_ab_apply,
    shapeCast_a_1a_apply, shapeCast_a_1a_apply]
  rfl

/-- The mean over groups of K consecutive rows: H regrouped as [P, K, D], summed over the middle axis, divided by
    the constant with word w; at (j, d) it is the sum over k of H at row j·K + k, divided by that constant. -/
theorem meanRows_apply {P K D n : ℕ} (H : FVec Ideal ⟨2, ![n, D]⟩ .f32)
    (hc : (⟨2, ![n, D]⟩ : Shape).ShapeCasts ⟨3, ![P, K, D]⟩)
    (hr : (⟨3, ![P, K, D]⟩ : Shape).Reduces [1] ⟨2, ![P, D]⟩)
    (hφ : FKind.Formats .f32) (hacc : (0x00000000#32 : BitVec 32) = FKind.add.neutral .f32 hφ) (w : BitVec 32)
    (row : Fin P → Fin K → Fin n) (hrow : ∀ j k, (row j k).val = j.val * K + k.val) (j : Fin P) (d : Fin D) :
    divf (multiReduction .add [1] ⟨2, ![P, D]⟩ (shapeCast ⟨3, ![P, K, D]⟩ H hc) 0x00000000#32 hr hφ hacc)
        (broadcast ⟨2, ![P, D]⟩ (Scalar.ofBits .f32 w)) (ix2 j d)
      = Ideal.div (∑ k : Fin K, H (ix2 (row j k) d)) (Ideal.ofBits .f32 w) := by
  rw [divf_apply, broadcast_apply, Ideal.multiReduction_add_single]
  refine congrArg (Ideal.div · (Ideal.ofBits .f32 w)) (Finset.sum_congr rfl fun k _ => ?_)
  have e : hr.lift (ix2 j d) k = ix3 j k d := funext fun a => Fin.ext (by
    match a with
    | ⟨0, _⟩ => rfl
    | ⟨1, _⟩ => rfl
    | ⟨2, _⟩ => rfl)
  rw [e]
  exact Cert.Lib.MergeRows.shapeCast_nc_abc_apply H hc j k d (row j k) (hrow j k)

variable {α : Type}

/-- Two rank-4 arrays joined along the last axis, read in the first piece. -/
theorem concat4_left {a b c n₁ n₂ n : ℕ} (x₁ : (⟨4, ![a, b, c, n₁]⟩ : Shape).Idx → α)
    (x₂ : (⟨4, ![a, b, c, n₂]⟩ : Shape).Idx → α)
    (h : Shape.Concatenates [⟨4, ![a, b, c, n₁]⟩, ⟨4, ![a, b, c, n₂]⟩] ⟨4, ![a, b, c, n]⟩ 3)
    (i : Fin a) (j : Fin b) (k : Fin c) (e : Fin n₁) (e' : Fin n) (he : e'.val = e.val) :
    concatenate ⟨4, ![a, b, c, n]⟩ 3 [⟨⟨4, ![a, b, c, n₁]⟩, x₁⟩, ⟨⟨4, ![a, b, c, n₂]⟩, x₂⟩] h (ix4 i j k e')
      = x₁ (ix4 i j k e) :=
  concatenate_pair_apply_left 3 x₁ x₂ h _ rfl _ (fun q => by
    match q with
    | ⟨0, _⟩ => rfl
    | ⟨1, _⟩ => rfl
    | ⟨2, _⟩ => rfl
    | ⟨3, _⟩ => exact he.symm)

/-- Two rank-4 arrays joined along the last axis, read in the second piece: column n₁ + e of the joined array is
    column e of the second. -/
theorem concat4_right {a b c n₁ n₂ n : ℕ} (x₁ : (⟨4, ![a, b, c, n₁]⟩ : Shape).Idx → α)
    (x₂ : (⟨4, ![a, b, c, n₂]⟩ : Shape).Idx → α)
    (h : Shape.Concatenates [⟨4, ![a, b, c, n₁]⟩, ⟨4, ![a, b, c, n₂]⟩] ⟨4, ![a, b, c, n]⟩ 3)
    (i : Fin a) (j : Fin b) (k : Fin c) (e : Fin n₂) (e' : Fin n) (he : e'.val = n₁ + e.val) :
    concatenate ⟨4, ![a, b, c, n]⟩ 3 [⟨⟨4, ![a, b, c, n₁]⟩, x₁⟩, ⟨⟨4, ![a, b, c, n₂]⟩, x₂⟩] h (ix4 i j k e')
      = x₂ (ix4 i j k e) :=
  concatenate_pair_apply_right 3 x₁ x₂ h _ rfl rfl _ (fun q hq => by
    match q, hq with
    | ⟨0, _⟩, _ => rfl
    | ⟨1, _⟩, _ => rfl
    | ⟨2, _⟩, _ => rfl
    | ⟨3, _⟩, hq => exact absurd rfl hq) (by
    show e.val + n₁ = e'.val
    omega)

/-- The two middle axes of an [a, b, c, d] array merged into one of extent n = b·c: at (i, r, e) with
    r = j·c + k the merged array holds the entry (i, j, k, e). -/
theorem shapeCast_abcd_and_apply {a b c d n : ℕ} (x : (⟨4, ![a, b, c, d]⟩ : Shape).Idx → α)
    (h : (⟨4, ![a, b, c, d]⟩ : Shape).ShapeCasts ⟨3, ![a, n, d]⟩) (hn : n = b * c)
    (i : Fin a) (j : Fin b) (k : Fin c) (e : Fin d) (r : Fin n) (hr : r.val = j.val * c + k.val) :
    shapeCast ⟨3, ![a, n, d]⟩ x h (ix3 i r e) = x (ix4 i j k e) :=
  shapeCast_apply x h _ _ (by
    rw [Shape.rowMajor_val_four, Shape.rowMajor_val_three]
    show ((i.val * b + j.val) * c + k.val) * d + e.val = (i.val * n + r.val) * d + e.val
    rw [hr, hn]
    ring)

end Cert.Srn

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.Body.lean ====
/-
  What one run of the kernel body leaves in its output block, entry by entry.

  A grid point handles 256 points of one batch element. Its relation block has 8192 rows, row j·32 + k being
  neighbour k of the block's point j, and 70 columns: the six geometric numbers, then the 64 feature numbers. The
  weight blocks arrive transposed (input unit first, output unit second), the fused layer's weights as two blocks
  of 64 input units each. The body computes the four layers on all rows at once, takes the mean over each group
  of 32 rows, applies the last layer to the 256 means, and stores the transposed result plus the residual block:
  entry (0, c, j) of the output block is the point's output at channel c (`pointOut`) plus the residual there.
-/
import proofs.«165472_j48026324303943_2_alg».proof.Proof.Gen.KernelIdeal.Frame
import proofs.«165472_j48026324303943_2_alg».proof.Proof.Layers
import proofs.«165472_j48026324303943_2_alg».proof.Proof.LibContractPlain

set_option maxRecDepth 16384

noncomputable section

namespace Cert.KernelIdeal.Body

open Cert.KernelIdeal Cert.KernelIdeal.Gen Idealize.ShloMosaic Idealize.ShloMosaic.ValueIdx Cert.Srn
open Cert.Lib.ContractPlain

/-- Row j·32 + k of a relation block: neighbour k of the block's point j. -/
def row (j : Fin 256) (k : Fin 32) : Fin 8192 := ⟨j.val * 32 + k.val, by have := j.isLt; have := k.isLt; omega⟩
/-- Column e of the relation block's geometric part. -/
def colX (e : Fin 6) : Fin 70 := ⟨e.val, by have := e.isLt; omega⟩
/-- Column 6 + e: feature e of the relation block. -/
def colF (e : Fin 64) : Fin 70 := ⟨6 + e.val, by have := e.isLt; omega⟩

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The geometric branch on all rows: at (r, o) the clipped affine image of the row's six geometric numbers
    against column o of the transposed weights. -/
theorem pay2_apply (x0 : Vec Ideal S1x8192x70 .bf16) (x2 : Vec Ideal S6x64 .f32) (x3 x4 : Vec Ideal S64 .f32)
    (r : Fin 8192) (o : Fin 64) :
    k0_pay2 (F := Ideal) x0 x2 x3 x4 (ix2 r o)
      = act (∑ e : Fin 6, x0 (ix3 (0 : Fin 1) r (colX e)) * x2 (ix2 e o)) (x3 (ix1 o)) (x4 (ix1 o)) := by
  unfold k0_pay2 k0_pay1
  dsimp only
  rw [truncf_apply, affineRelu_apply, matmulZero_apply dot_S8192x6_S6x64_S8192x64_1_0_0_1_n_n rfl]
  refine congrArg (act · _ _) (Finset.sum_congr rfl fun e _ => ?_)
  rw [slice2_axis1_apply 0 _ _ r e (colX e) (Nat.zero_add _).symm, shapeCast_1ab_ab_apply, truncf_apply,
    shapeCast_self]

/-- The feature branch on all rows, likewise over the row's 64 feature numbers. -/
theorem pay3_apply (x0 : Vec Ideal S1x8192x70 .bf16) (x5 : Vec Ideal S64x64 .f32) (x6 x7 : Vec Ideal S64 .f32)
    (r : Fin 8192) (o : Fin 64) :
    k0_pay3 (F := Ideal) x0 x5 x6 x7 (ix2 r o)
      = act (∑ e : Fin 64, x0 (ix3 (0 : Fin 1) r (colF e)) * x5 (ix2 e o)) (x6 (ix1 o)) (x7 (ix1 o)) := by
  unfold k0_pay3 k0_pay1
  dsimp only
  rw [truncf_apply, affineRelu_apply, matmulZero_apply dot_S8192x64_S64x64_S8192x64_1_0_0_1_n_n rfl]
  refine congrArg (act · _ _) (Finset.sum_congr rfl fun e _ => ?_)
  rw [slice2_axis1_apply 6 _ _ r e (colF e) rfl, shapeCast_1ab_ab_apply, truncf_apply, shapeCast_self]

/-- A weight block changes neither by a cast to its own shape nor by a change of float format. -/
theorem pay4_eq (x8 : Vec Ideal S64x128 .f32) : k0_pay4 (F := Ideal) x8 = x8 := by
  unfold k0_pay4
  dsimp only
  rw [shapeCast_self]
  rfl

theorem pay5_eq (x9 : Vec Ideal S64x128 .f32) : k0_pay5 (F := Ideal) x9 = x9 := by
  unfold k0_pay5
  dsimp only
  rw [shapeCast_self]

/-- The rest of the body from the two branches on: the fused layer on every row, the mean over each point's 32
    rows, the last layer, the transposition and the residual. -/
theorem pay6_apply (v32 v33 : FVec Ideal S8192x64 .bf16) (v36 : FVec Ideal S64x128 .bf16)
    (v38 : FVec Ideal S64x128 .f32) (x10 x11 : Vec Ideal S128 .f32) (x12 : Vec Ideal S128x64 .f32)
    (x13 x14 : Vec Ideal S64 .f32) (x1 : Vec Ideal S1x64x256 .f32) (c : Fin 64) (j : Fin 256) :
    k0_pay6 (F := Ideal) v32 v33 v36 v38 x10 x11 x12 x13 x14 x1 (ix3 (0 : Fin 1) c j)
      = act (∑ d : Fin 128,
            Ideal.div (∑ k : Fin 32,
                act ((∑ e : Fin 64, v32 (ix2 (row j k) e) * v36 (ix2 e d))
                      + ∑ e : Fin 64, v33 (ix2 (row j k) e) * v38 (ix2 e d))
                  (x10 (ix1 d)) (x11 (ix1 d)))
              (Ideal.ofBits .f32 0x42000000#32)
            * x12 (ix2 d c))
          (x13 (ix1 c)) (x14 (ix1 c))
        + x1 (ix3 (0 : Fin 1) c j) := by
  unfold k0_pay6
  dsimp only
  rw [shapeCast_ab_1ab_apply, addf_apply, shapeCast_1ab_ab_apply, transpose_ix2_apply, affineRelu_apply,
    matmulZero_apply dot_S256x128_S128x64_S256x64_1_0_0_1_n_n rfl]
  refine congrArg (· + _) (congrArg (act · _ _) (Finset.sum_congr rfl fun d _ => ?_))
  rw [truncf_apply, truncf_apply, shapeCast_self]
  refine congrArg (· * x12 (ix2 d c)) ?_
  refine (meanRows_apply _ _ _ _ _ _ row (fun _ _ => rfl) j d).trans ?_
  refine congrArg (Ideal.div · _) (Finset.sum_congr rfl fun k _ => ?_)
  rw [affineRelu_apply, addf_apply, matmulZero_apply dot_S8192x64_S64x128_S8192x128_1_0_0_1_n_n rfl,
    matmulZero_apply dot_S8192x64_S64x128_S8192x128_1_0_0_1_n_n rfl]
  rfl

section Block

variable (x0 : Vec Ideal S1x8192x70 .bf16) (x1 : Vec Ideal S1x64x256 .f32) (x2 : Vec Ideal S6x64 .f32)
  (x3 x4 : Vec Ideal S64 .f32) (x5 : Vec Ideal S64x64 .f32) (x6 x7 : Vec Ideal S64 .f32)
  (x8 x9 : Vec Ideal S64x128 .f32) (x10 x11 : Vec Ideal S128 .f32) (x12 : Vec Ideal S128x64 .f32)
  (x13 x14 : Vec Ideal S64 .f32)
  (XZ : Fin 256 → Fin 32 → Fin 6 → EReal) (FT : Fin 256 → Fin 32 → Fin 64 → EReal)
  (Wgu : Fin 64 → Fin 6 → EReal) (sgu bgu : Fin 64 → EReal)
  (Wgv : Fin 64 → Fin 64 → EReal) (sgv bgv : Fin 64 → EReal)
  (Wh : Fin 128 → Fin 128 → EReal) (sh bh : Fin 128 → EReal)
  (Wf : Fin 64 → Fin 128 → EReal) (sf bf : Fin 64 → EReal)

/-- THE OUTPUT BLOCK. If the relation block's row j·32 + k holds neighbour k of point j (its geometric part XZ, its
    feature part FT) and the weight blocks are the transposed weights, then entry (0, c, j) of what the body
    stores is point j's output at channel c plus the residual block's entry. -/
theorem out_apply
    (h0x : ∀ j k e, x0 (ix3 (0 : Fin 1) (row j k) (colX e)) = XZ j k e)
    (h0f : ∀ j k e, x0 (ix3 (0 : Fin 1) (row j k) (colF e)) = FT j k e)
    (h2 : ∀ e o, x2 (ix2 e o) = Wgu o e) (h3 : ∀ o, x3 (ix1 o) = sgu o) (h4 : ∀ o, x4 (ix1 o) = bgu o)
    (h5 : ∀ e o, x5 (ix2 e o) = Wgv o e) (h6 : ∀ o, x6 (ix1 o) = sgv o) (h7 : ∀ o, x7 (ix1 o) = bgv o)
    (h8 : ∀ e d, x8 (ix2 e d) = Wh d (lo e)) (h9 : ∀ e d, x9 (ix2 e d) = Wh d (hi e))
    (h10 : ∀ d, x10 (ix1 d) = sh d) (h11 : ∀ d, x11 (ix1 d) = bh d)
    (h12 : ∀ d c, x12 (ix2 d c) = Wf c d) (h13 : ∀ c, x13 (ix1 c) = sf c) (h14 : ∀ c, x14 (ix1 c) = bf c)
    (c : Fin 64) (j : Fin 256) :
    out0_15 (F := Ideal) x0 x1 x2 x3 x4 x5 x6 x7 x8 x9 x10 x11 x12 x13 x14 (ix3 (0 : Fin 1) c j)
      = pointOut (XZ j) (FT j) Wgu sgu bgu Wgv sgv bgv Wh sh bh Wf sf bf c + x1 (ix3 (0 : Fin 1) c j) := by
  unfold out0_15
  rw [View.canon_unit_zero hz3]
  simp only [View.ld_unit_zero (S := S1x8192x70) hz3, View.ld_unit_zero (S := S1x64x256) hz3,
    View.ld_unit_zero (S := S6x64) hz2, View.ld_unit_zero (S := S64x64) hz2, View.ld_unit_zero (S := S64x128) hz2,
    View.ld_unit_zero (S := S128x64) hz2, View.ld_unit_zero (S := S64) hz1, View.ld_unit_zero (S := S128) hz1]
  rw [pay6_apply, pay4_eq, pay5_eq]
  simp only [pay2_apply, pay3_apply, h0x, h0f, h2, h3, h4, h5, h6, h7, h8, h9, h10, h11, h12, h13, h14]
  rfl

end Block

end Cert.KernelIdeal.Body

end
-- ==== Proof.Blocks.lean ====
/-
  From the blocks to the whole result array.

  The grid has 4 × 16 points: point (B, T) handles the 256 points T·256 … T·256 + 255 of batch element B. Its
  relation block is rows T·8192 … T·8192 + 8191 of batch B of the relation array, which the host builds before the
  call: the relation tensor's two parts joined along the last axis (six geometric columns, then 64 feature
  columns) with the point and neighbour axes merged, so that row (T·256 + j)·32 + k is neighbour k of point
  T·256 + j. The weight blocks are the whole transposed weight matrices at every point (the fused layer's cut into
  its first and last 64 rows), the scale and shift vectors are the arguments themselves, and the residual block is
  block (B, 0, T) of the features. So what a point writes back is its block of `G`; the 64 output blocks tile the
  result array.
-/
import proofs.«165472_j48026324303943_2_alg».proof.Proof.Gen.KernelIdeal.Value
import proofs.«165472_j48026324303943_2_alg».proof.Proof.Gen.ReferenceIdeal.Read
import proofs.«165472_j48026324303943_2_alg».proof.Proof.Body

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Srn Cert.KernelIdeal.Body
open Idealize.ShloMosaic.Pipeline (Dat)

variable (m : (ℓ : Loc nD τ sig) → Buf (Elt Ideal) ℓ) (ρ : Dev nD → PrngReg)

/-! ## What the host operations before the call leave in the windows' arrays -/

/-- The relation tensor's geometric part, [batch, point, neighbour, 6]: the point's own coordinates and the
    neighbour's, as the host builds it from the arguments. -/
abbrev RX (c : Dev nD) : S4x4096x32x6.Idx → EReal :=
  Cert.ReferenceIdeal.Read.val_main_v17 (F := Ideal) (m ((c : Thread nD τ).loc main_arg0)) (m ((c : Thread nD τ).loc main_arg2))
/-- Its feature part, [batch, point, neighbour, 64]: the neighbour's features plus the point's own. -/
abbrev RF (c : Dev nD) : S4x4096x32x64.Idx → EReal :=
  Cert.ReferenceIdeal.Read.val_main_v20 (F := Ideal) (m ((c : Thread nD τ).loc main_arg1)) (m ((c : Thread nD τ).loc main_arg2))

set_option maxHeartbeats 4000000 in
/-- The relation array the kernel reads: the two parts joined along the last axis, the point and neighbour axes
    merged. -/
theorem V_v23 (c : Dev nD) : (V m c main_v23 : S4x131072x70.Idx → EReal)
    = shapeCast S4x131072x70 (truncf (F := Ideal) .bf16 (concatenate S4x4096x32x70 3
        [⟨S4x4096x32x6, RX m c⟩, ⟨S4x4096x32x64, RF m c⟩]
        concatenates_S4x4096x32x6_S4x4096x32x64_S4x4096x32x70_d3) bitsLt_bf16_f32) shapeCasts_S4x4096x32x70_S4x131072x70 := by
  dsimp only [Gen.V, Gen.hostOps0]
  after_results_simp
  rfl

theorem V_v24 (c : Dev nD) : (V m c main_v24 : S6x64.Idx → EReal)
    = transpose S6x64 [1, 0] (m ((c : Thread nD τ).loc main_arg3)) transposes_S64x6_S6x64_1_0 := by
  dsimp only [Gen.V, Gen.hostOps0]
  after_results

theorem V_v25 (c : Dev nD) : (V m c main_v25 : S64x64.Idx → EReal)
    = transpose S64x64 [1, 0] (m ((c : Thread nD τ).loc main_arg6)) transposes_S64x64_S64x64_1_0 := by
  dsimp only [Gen.V, Gen.hostOps0]
  after_results

theorem V_v27 (c : Dev nD) : (V m c main_v27 : S64x128.Idx → EReal)
    = extractStridedSlice S64x128 ![0, 0] (transpose S128x128 [1, 0] (m ((c : Thread nD τ).loc main_arg9)) transposes_S128x128_S128x128_1_0)
        slices_S128x128_S64x128_0_0 := by
  dsimp only [Gen.V, Gen.hostOps0]
  after_results

theorem V_v28 (c : Dev nD) : (V m c main_v28 : S64x128.Idx → EReal)
    = extractStridedSlice S64x128 ![64, 0] (transpose S128x128 [1, 0] (m ((c : Thread nD τ).loc main_arg9)) transposes_S128x128_S128x128_1_0)
        slices_S128x128_S64x128_64_0 := by
  dsimp only [Gen.V, Gen.hostOps0]
  after_results

theorem V_v29 (c : Dev nD) : (V m c main_v29 : S128x64.Idx → EReal)
    = transpose S128x64 [1, 0] (m ((c : Thread nD τ).loc main_arg12)) transposes_S64x128_S128x64_1_0 := by
  dsimp only [Gen.V, Gen.hostOps0]
  after_results

/-- Row p·32 + k of batch B of the relation array, in its first six columns, is the geometric part at (B, p, k). -/
theorem rel_x (c : Dev nD) (B : Fin 4) (p : Fin 4096) (k : Fin 32) (e : Fin 6) (R : Fin 131072)
    (hR : R.val = p.val * 32 + k.val) :
    (V m c main_v23 : S4x131072x70.Idx → EReal) (ix3 B R (colX e)) = RX m c (ix4 B p k e) := by
  rw [V_v23, shapeCast_abcd_and_apply _ _ (by norm_num) B p k (colX e) R hR, truncf_apply]
  exact concat4_left _ _ _ B p k e (colX e) rfl

/-- … and in its last 64 columns the feature part. -/
theorem rel_f (c : Dev nD) (B : Fin 4) (p : Fin 4096) (k : Fin 32) (e : Fin 64) (R : Fin 131072)
    (hR : R.val = p.val * 32 + k.val) :
    (V m c main_v23 : S4x131072x70.Idx → EReal) (ix3 B R (colF e)) = RF m c (ix4 B p k e) := by
  rw [V_v23, shapeCast_abcd_and_apply _ _ (by norm_num) B p k (colF e) R hR, truncf_apply]
  exact concat4_right _ _ _ B p k e (colF e) rfl

theorem wgu_at (c : Dev nD) (e : Fin 6) (o : Fin 64) :
    (V m c main_v24 : S6x64.Idx → EReal) (ix2 e o) = ((m ((c : Thread nD τ).loc main_arg3)) : S64x6.Idx → EReal) (ix2 o e) := by
  rw [V_v24]
  exact transpose_ix2_apply _ _ e o

theorem wgv_at (c : Dev nD) (e : Fin 64) (o : Fin 64) :
    (V m c main_v25 : S64x64.Idx → EReal) (ix2 e o) = ((m ((c : Thread nD τ).loc main_arg6)) : S64x64.Idx → EReal) (ix2 o e) := by
  rw [V_v25]
  exact transpose_ix2_apply _ _ e o

theorem wh1_at (c : Dev nD) (e : Fin 64) (d : Fin 128) :
    (V m c main_v27 : S64x128.Idx → EReal) (ix2 e d) = ((m ((c : Thread nD τ).loc main_arg9)) : S128x128.Idx → EReal) (ix2 d (lo e)) := by
  rw [V_v27, slice2_axis0_apply 0 _ _ e d (lo e) (Nat.zero_add _).symm]
  exact transpose_ix2_apply _ _ (lo e) d

theorem wh2_at (c : Dev nD) (e : Fin 64) (d : Fin 128) :
    (V m c main_v28 : S64x128.Idx → EReal) (ix2 e d) = ((m ((c : Thread nD τ).loc main_arg9)) : S128x128.Idx → EReal) (ix2 d (hi e)) := by
  rw [V_v28, slice2_axis0_apply 64 _ _ e d (hi e) rfl]
  exact transpose_ix2_apply _ _ (hi e) d

theorem wf_at (c : Dev nD) (d : Fin 128) (o : Fin 64) :
    (V m c main_v29 : S128x64.Idx → EReal) (ix2 d o) = ((m ((c : Thread nD τ).loc main_arg12)) : S64x128.Idx → EReal) (ix2 o d) := by
  rw [V_v29]
  exact transpose_ix2_apply _ _ d o

/-! ## The windows' blocks at a grid point -/

/-- The printed index maps, decided over the 64 grid points: the relation window moves with the output window
    (batch with batch, row block with point tile), the residual window is the output window's. -/
theorem idx_rel : ∀ t : Fin cfg0.N,
    win0_0.index t (0 : Fin 3) = win0_15.index t (0 : Fin 3) ∧ win0_0.index t (1 : Fin 3) = win0_15.index t (2 : Fin 3)
    ∧ win0_0.index t (2 : Fin 3) = 0
    ∧ win0_1.index t (0 : Fin 3) = win0_15.index t (0 : Fin 3) ∧ win0_1.index t (1 : Fin 3) = 0
    ∧ win0_1.index t (2 : Fin 3) = win0_15.index t (2 : Fin 3)
    ∧ win0_15.index t (1 : Fin 3) = 0 ∧ win0_15.index t (0 : Fin 3) < 4 ∧ win0_15.index t (2 : Fin 3) < 16 :=
  (by decide +kernel : ∀ t : Fin grid0.N, _)

/-- Every block of the result array is some point's. -/
theorem idx_onto : ∀ (q0 : Fin 4) (q2 : Fin 16), ∃ t : Fin cfg0.N, win0_15.index t = ![q0.val, 0, q2.val] :=
  (by decide +kernel : ∀ (q0 : Fin 4) (q2 : Fin 16), ∃ t : Fin grid0.N, win0_15.index t = ![q0.val, 0, q2.val])

/-- Reading any array of the relation array's shape through the relation window's block at a point: entry x of the
    block is the array's entry in batch B, row T·8192 + (x's row), same column. -/
theorem blk0_read (f : S4x131072x70.Idx → EReal) (t : Fin cfg0.N) (x : S1x8192x70.Idx) (k : S4x131072x70.Idx)
    (h0 : (k 0).val = win0_15.index t (0 : Fin 3) + (x 0).val)
    (h1 : (k 1).val = win0_15.index t (2 : Fin 3) * 8192 + (x 1).val)
    (h2 : (k 2).val = (x 2).val) :
    (((cfg0.win 0).blk t).view.read (Elt Ideal) f : Vec Ideal S1x8192x70 .bf16) x = f k := by
  obtain ⟨e0, e1, e2, -⟩ := idx_rel t
  rw [View.read_apply]
  show f _ = f _
  refine congrArg f (funext fun a => Fin.ext ?_)
  match a with
  | ⟨0, _⟩ => show win0_0.index t (0 : Fin 3) * 1 + 1 * (x 0).val = (k 0).val; omega
  | ⟨1, _⟩ => show win0_0.index t (1 : Fin 3) * 8192 + 1 * (x 1).val = (k 1).val; omega
  | ⟨2, _⟩ => show win0_0.index t (2 : Fin 3) * 70 + 1 * (x 2).val = (k 2).val; omega

/-- The relation window's block at a point is rows T·8192 … of batch B of the relation array. -/
theorem iblk0_apply (c : Dev nD) (t : Fin cfg0.N) (x : S1x8192x70.Idx) (k : S4x131072x70.Idx)
    (h0 : (k 0).val = win0_15.index t (0 : Fin 3) + (x 0).val)
    (h1 : (k 1).val = win0_15.index t (2 : Fin 3) * 8192 + (x 1).val)
    (h2 : (k 2).val = (x 2).val) :
    (iblk m c 0 t : Vec Ideal S1x8192x70 .bf16) x = (V m c main_v23 : S4x131072x70.Idx → EReal) k :=
  blk0_read (V m c main_v23) t x k h0 h1 h2

/-- Reading any array of the features' shape through the residual window's block at a point: the same entry as
    through the output window's block. -/
theorem blk1_read (f : S4x64x4096.Idx → EReal) (t : Fin cfg0.N) (x : S1x64x256.Idx) :
    (((cfg0.win 1).blk t).view.read (Elt Ideal) f : Vec Ideal S1x64x256 .f32) x
      = f (((cfg0.win 15).blk t).view.emb x) := by
  obtain ⟨-, -, -, e3, e4, e5, e6, -⟩ := idx_rel t
  rw [View.read_apply]
  show f _ = f _
  refine congrArg f (funext fun a => Fin.ext ?_)
  match a with
  | ⟨0, _⟩ => show win0_1.index t (0 : Fin 3) * 1 + 1 * (x 0).val = win0_15.index t (0 : Fin 3) * 1 + 1 * (x 0).val; omega
  | ⟨1, _⟩ => show win0_1.index t (1 : Fin 3) * 64 + 1 * (x 1).val = win0_15.index t (1 : Fin 3) * 64 + 1 * (x 1).val; omega
  | ⟨2, _⟩ => show win0_1.index t (2 : Fin 3) * 256 + 1 * (x 2).val = win0_15.index t (2 : Fin 3) * 256 + 1 * (x 2).val; omega

/-- The residual window's block at a point is the output block's place in the features. -/
theorem iblk1_apply (c : Dev nD) (t : Fin cfg0.N) (x : S1x64x256.Idx) :
    (iblk m c 1 t : Vec Ideal S1x64x256 .f32) x
      = (V m c main_arg1 : S4x64x4096.Idx → EReal) (((cfg0.win 15).blk t).view.emb x) :=
  blk1_read (V m c main_arg1) t x

/-! The weight, scale and shift windows hold their whole arrays at every point. -/

theorem idx_w2 : ∀ t : Fin cfg0.N, win0_2.index t = ![0, 0] :=
  (by decide +kernel : ∀ t : Fin grid0.N, win0_2.index t = ![0, 0])

theorem iblk2_apply (c : Dev nD) (t : Fin cfg0.N) (x : S6x64.Idx) :
    (iblk m c 2 t : Vec Ideal S6x64 .f32) x = (V m c main_v24 : S6x64.Idx → EReal) x := by
  have q0 : win0_2.index t (0 : Fin 2) = 0 := congrFun (idx_w2 t) 0
  have q1 : win0_2.index t (1 : Fin 2) = 0 := congrFun (idx_w2 t) 1
  unfold iblk
  rw [View.read_apply]
  show V m c main_v24 _ = V m c main_v24 _
  congr 1
  funext a; apply Fin.ext
  match a with
  | ⟨0, _⟩ => show win0_2.index t (0 : Fin 2) * 6 + 1 * (x 0).val = (x 0).val; omega
  | ⟨1, _⟩ => show win0_2.index t (1 : Fin 2) * 64 + 1 * (x 1).val = (x 1).val; omega

theorem idx_w3 : ∀ t : Fin cfg0.N, win0_3.index t = ![0] :=
  (by decide +kernel : ∀ t : Fin grid0.N, win0_3.index t = ![0])

theorem iblk3_apply (c : Dev nD) (t : Fin cfg0.N) (x : S64.Idx) :
    (iblk m c 3 t : Vec Ideal S64 .f32) x = (V m c main_arg4 : S64.Idx → EReal) x := by
  have q0 : win0_3.index t (0 : Fin 1) = 0 := congrFun (idx_w3 t) 0
  unfold iblk
  rw [View.read_apply]
  show V m c main_arg4 _ = V m c main_arg4 _
  congr 1
  funext a; apply Fin.ext
  match a with
  | ⟨0, _⟩ => show win0_3.index t (0 : Fin 1) * 64 + 1 * (x 0).val = (x 0).val; omega

theorem idx_w4 : ∀ t : Fin cfg0.N, win0_4.index t = ![0] :=
  (by decide +kernel : ∀ t : Fin grid0.N, win0_4.index t = ![0])

theorem iblk4_apply (c : Dev nD) (t : Fin cfg0.N) (x : S64.Idx) :
    (iblk m c 4 t : Vec Ideal S64 .f32) x = (V m c main_arg5 : S64.Idx → EReal) x := by
  have q0 : win0_4.index t (0 : Fin 1) = 0 := congrFun (idx_w4 t) 0
  unfold iblk
  rw [View.read_apply]
  show V m c main_arg5 _ = V m c main_arg5 _
  congr 1
  funext a; apply Fin.ext
  match a with
  | ⟨0, _⟩ => show win0_4.index t (0 : Fin 1) * 64 + 1 * (x 0).val = (x 0).val; omega

theorem idx_w5 : ∀ t : Fin cfg0.N, win0_5.index t = ![0, 0] :=
  (by decide +kernel : ∀ t : Fin grid0.N, win0_5.index t = ![0, 0])

theorem iblk5_apply (c : Dev nD) (t : Fin cfg0.N) (x : S64x64.Idx) :
    (iblk m c 5 t : Vec Ideal S64x64 .f32) x = (V m c main_v25 : S64x64.Idx → EReal) x := by
  have q0 : win0_5.index t (0 : Fin 2) = 0 := congrFun (idx_w5 t) 0
  have q1 : win0_5.index t (1 : Fin 2) = 0 := congrFun (idx_w5 t) 1
  unfold iblk
  rw [View.read_apply]
  show V m c main_v25 _ = V m c main_v25 _
  congr 1
  funext a; apply Fin.ext
  match a with
  | ⟨0, _⟩ => show win0_5.index t (0 : Fin 2) * 64 + 1 * (x 0).val = (x 0).val; omega
  | ⟨1, _⟩ => show win0_5.index t (1 : Fin 2) * 64 + 1 * (x 1).val = (x 1).val; omega

theorem idx_w6 : ∀ t : Fin cfg0.N, win0_6.index t = ![0] :=
  (by decide +kernel : ∀ t : Fin grid0.N, win0_6.index t = ![0])

theorem iblk6_apply (c : Dev nD) (t : Fin cfg0.N) (x : S64.Idx) :
    (iblk m c 6 t : Vec Ideal S64 .f32) x = (V m c main_arg7 : S64.Idx → EReal) x := by
  have q0 : win0_6.index t (0 : Fin 1) = 0 := congrFun (idx_w6 t) 0
  unfold iblk
  rw [View.read_apply]
  show V m c main_arg7 _ = V m c main_arg7 _
  congr 1
  funext a; apply Fin.ext
  match a with
  | ⟨0, _⟩ => show win0_6.index t (0 : Fin 1) * 64 + 1 * (x 0).val = (x 0).val; omega

theorem idx_w7 : ∀ t : Fin cfg0.N, win0_7.index t = ![0] :=
  (by decide +kernel : ∀ t : Fin grid0.N, win0_7.index t = ![0])

theorem iblk7_apply (c : Dev nD) (t : Fin cfg0.N) (x : S64.Idx) :
    (iblk m c 7 t : Vec Ideal S64 .f32) x = (V m c main_arg8 : S64.Idx → EReal) x := by
  have q0 : win0_7.index t (0 : Fin 1) = 0 := congrFun (idx_w7 t) 0
  unfold iblk
  rw [View.read_apply]
  show V m c main_arg8 _ = V m c main_arg8 _
  congr 1
  funext a; apply Fin.ext
  match a with
  | ⟨0, _⟩ => show win0_7.index t (0 : Fin 1) * 64 + 1 * (x 0).val = (x 0).val; omega

theorem idx_w8 : ∀ t : Fin cfg0.N, win0_8.index t = ![0, 0] :=
  (by decide +kernel : ∀ t : Fin grid0.N, win0_8.index t = ![0, 0])

theorem iblk8_apply (c : Dev nD) (t : Fin cfg0.N) (x : S64x128.Idx) :
    (iblk m c 8 t : Vec Ideal S64x128 .f32) x = (V m c main_v27 : S64x128.Idx → EReal) x := by
  have q0 : win0_8.index t (0 : Fin 2) = 0 := congrFun (idx_w8 t) 0
  have q1 : win0_8.index t (1 : Fin 2) = 0 := congrFun (idx_w8 t) 1
  unfold iblk
  rw [View.read_apply]
  show V m c main_v27 _ = V m c main_v27 _
  congr 1
  funext a; apply Fin.ext
  match a with
  | ⟨0, _⟩ => show win0_8.index t (0 : Fin 2) * 64 + 1 * (x 0).val = (x 0).val; omega
  | ⟨1, _⟩ => show win0_8.index t (1 : Fin 2) * 128 + 1 * (x 1).val = (x 1).val; omega

theorem idx_w9 : ∀ t : Fin cfg0.N, win0_9.index t = ![0, 0] :=
  (by decide +kernel : ∀ t : Fin grid0.N, win0_9.index t = ![0, 0])

theorem iblk9_apply (c : Dev nD) (t : Fin cfg0.N) (x : S64x128.Idx) :
    (iblk m c 9 t : Vec Ideal S64x128 .f32) x = (V m c main_v28 : S64x128.Idx → EReal) x := by
  have q0 : win0_9.index t (0 : Fin 2) = 0 := congrFun (idx_w9 t) 0
  have q1 : win0_9.index t (1 : Fin 2) = 0 := congrFun (idx_w9 t) 1
  unfold iblk
  rw [View.read_apply]
  show V m c main_v28 _ = V m c main_v28 _
  congr 1
  funext a; apply Fin.ext
  match a with
  | ⟨0, _⟩ => show win0_9.index t (0 : Fin 2) * 64 + 1 * (x 0).val = (x 0).val; omega
  | ⟨1, _⟩ => show win0_9.index t (1 : Fin 2) * 128 + 1 * (x 1).val = (x 1).val; omega

theorem idx_w10 : ∀ t : Fin cfg0.N, win0_10.index t = ![0] :=
  (by decide +kernel : ∀ t : Fin grid0.N, win0_10.index t = ![0])

theorem iblk10_apply (c : Dev nD) (t : Fin cfg0.N) (x : S128.Idx) :
    (iblk m c 10 t : Vec Ideal S128 .f32) x = (V m c main_arg10 : S128.Idx → EReal) x := by
  have q0 : win0_10.index t (0 : Fin 1) = 0 := congrFun (idx_w10 t) 0
  unfold iblk
  rw [View.read_apply]
  show V m c main_arg10 _ = V m c main_arg10 _
  congr 1
  funext a; apply Fin.ext
  match a with
  | ⟨0, _⟩ => show win0_10.index t (0 : Fin 1) * 128 + 1 * (x 0).val = (x 0).val; omega

theorem idx_w11 : ∀ t : Fin cfg0.N, win0_11.index t = ![0] :=
  (by decide +kernel : ∀ t : Fin grid0.N, win0_11.index t = ![0])

theorem iblk11_apply (c : Dev nD) (t : Fin cfg0.N) (x : S128.Idx) :
    (iblk m c 11 t : Vec Ideal S128 .f32) x = (V m c main_arg11 : S128.Idx → EReal) x := by
  have q0 : win0_11.index t (0 : Fin 1) = 0 := congrFun (idx_w11 t) 0
  unfold iblk
  rw [View.read_apply]
  show V m c main_arg11 _ = V m c main_arg11 _
  congr 1
  funext a; apply Fin.ext
  match a with
  | ⟨0, _⟩ => show win0_11.index t (0 : Fin 1) * 128 + 1 * (x 0).val = (x 0).val; omega

theorem idx_w12 : ∀ t : Fin cfg0.N, win0_12.index t = ![0, 0] :=
  (by decide +kernel : ∀ t : Fin grid0.N, win0_12.index t = ![0, 0])

theorem iblk12_apply (c : Dev nD) (t : Fin cfg0.N) (x : S128x64.Idx) :
    (iblk m c 12 t : Vec Ideal S128x64 .f32) x = (V m c main_v29 : S128x64.Idx → EReal) x := by
  have q0 : win0_12.index t (0 : Fin 2) = 0 := congrFun (idx_w12 t) 0
  have q1 : win0_12.index t (1 : Fin 2) = 0 := congrFun (idx_w12 t) 1
  unfold iblk
  rw [View.read_apply]
  show V m c main_v29 _ = V m c main_v29 _
  congr 1
  funext a; apply Fin.ext
  match a with
  | ⟨0, _⟩ => show win0_12.index t (0 : Fin 2) * 128 + 1 * (x 0).val = (x 0).val; omega
  | ⟨1, _⟩ => show win0_12.index t (1 : Fin 2) * 64 + 1 * (x 1).val = (x 1).val; omega

theorem idx_w13 : ∀ t : Fin cfg0.N, win0_13.index t = ![0] :=
  (by decide +kernel : ∀ t : Fin grid0.N, win0_13.index t = ![0])

theorem iblk13_apply (c : Dev nD) (t : Fin cfg0.N) (x : S64.Idx) :
    (iblk m c 13 t : Vec Ideal S64 .f32) x = (V m c main_arg13 : S64.Idx → EReal) x := by
  have q0 : win0_13.index t (0 : Fin 1) = 0 := congrFun (idx_w13 t) 0
  unfold iblk
  rw [View.read_apply]
  show V m c main_arg13 _ = V m c main_arg13 _
  congr 1
  funext a; apply Fin.ext
  match a with
  | ⟨0, _⟩ => show win0_13.index t (0 : Fin 1) * 64 + 1 * (x 0).val = (x 0).val; omega

theorem idx_w14 : ∀ t : Fin cfg0.N, win0_14.index t = ![0] :=
  (by decide +kernel : ∀ t : Fin grid0.N, win0_14.index t = ![0])

theorem iblk14_apply (c : Dev nD) (t : Fin cfg0.N) (x : S64.Idx) :
    (iblk m c 14 t : Vec Ideal S64 .f32) x = (V m c main_arg14 : S64.Idx → EReal) x := by
  have q0 : win0_14.index t (0 : Fin 1) = 0 := congrFun (idx_w14 t) 0
  unfold iblk
  rw [View.read_apply]
  show V m c main_arg14 _ = V m c main_arg14 _
  congr 1
  funext a; apply Fin.ext
  match a with
  | ⟨0, _⟩ => show win0_14.index t (0 : Fin 1) * 64 + 1 * (x 0).val = (x 0).val; omega

/-! ## What a point writes back, the cover, and the run -/

/-- What the kernel's result array ends holding. -/
def result (c : Dev nD) : S4x64x4096.Idx → EReal :=
  G (RX m c) (RF m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg1))

/-- `G` at an index whose coordinates are known. -/
theorem G_apply (RX' : (⟨4, ![4, 4096, 32, 6]⟩ : Shape).Idx → EReal) (RF' : (⟨4, ![4, 4096, 32, 64]⟩ : Shape).Idx → EReal)
    (Wgu : (⟨2, ![64, 6]⟩ : Shape).Idx → EReal) (sgu bgu : (⟨1, ![64]⟩ : Shape).Idx → EReal)
    (Wgv : (⟨2, ![64, 64]⟩ : Shape).Idx → EReal) (sgv bgv : (⟨1, ![64]⟩ : Shape).Idx → EReal)
    (Wh : (⟨2, ![128, 128]⟩ : Shape).Idx → EReal) (sh bh : (⟨1, ![128]⟩ : Shape).Idx → EReal)
    (Wf : (⟨2, ![64, 128]⟩ : Shape).Idx → EReal) (sf bf : (⟨1, ![64]⟩ : Shape).Idx → EReal)
    (feat : (⟨3, ![4, 64, 4096]⟩ : Shape).Idx → EReal) (i : (⟨3, ![4, 64, 4096]⟩ : Shape).Idx)
    (b : Fin 4) (ch : Fin 64) (p : Fin 4096) (h0 : i 0 = b) (h1 : i 1 = ch) (h2 : i 2 = p) :
    G RX' RF' Wgu sgu bgu Wgv sgv bgv Wh sh bh Wf sf bf feat i
      = pointOut (fun k e => RX' (ix4 b p k e)) (fun k e => RF' (ix4 b p k e))
          (fun o e => Wgu (ix2 o e)) (fun o => sgu (ix1 o)) (fun o => bgu (ix1 o))
          (fun o e => Wgv (ix2 o e)) (fun o => sgv (ix1 o)) (fun o => bgv (ix1 o))
          (fun d e => Wh (ix2 d e)) (fun d => sh (ix1 d)) (fun d => bh (ix1 d))
          (fun c d => Wf (ix2 c d)) (fun c => sf (ix1 c)) (fun c => bf (ix1 c)) ch
        + feat i := by
  subst h0 h1 h2
  rfl

/-- The output block at any of its indices (Body.lean's `out_apply` with the index not yet split into coordinates). -/
theorem out_at_idx (x0 : Vec Ideal S1x8192x70 .bf16) (x1 : Vec Ideal S1x64x256 .f32) (x2 : Vec Ideal S6x64 .f32)
    (x3 x4 : Vec Ideal S64 .f32) (x5 : Vec Ideal S64x64 .f32) (x6 x7 : Vec Ideal S64 .f32)
    (x8 x9 : Vec Ideal S64x128 .f32) (x10 x11 : Vec Ideal S128 .f32) (x12 : Vec Ideal S128x64 .f32)
    (x13 x14 : Vec Ideal S64 .f32)
    (XZ : Fin 256 → Fin 32 → Fin 6 → EReal) (FT : Fin 256 → Fin 32 → Fin 64 → EReal)
    (Wgu : Fin 64 → Fin 6 → EReal) (sgu bgu : Fin 64 → EReal)
    (Wgv : Fin 64 → Fin 64 → EReal) (sgv bgv : Fin 64 → EReal)
    (Wh : Fin 128 → Fin 128 → EReal) (sh bh : Fin 128 → EReal)
    (Wf : Fin 64 → Fin 128 → EReal) (sf bf : Fin 64 → EReal)
    (h0x : ∀ j k e, x0 (ix3 (0 : Fin 1) (row j k) (colX e)) = XZ j k e)
    (h0f : ∀ j k e, x0 (ix3 (0 : Fin 1) (row j k) (colF e)) = FT j k e)
    (h2 : ∀ e o, x2 (ix2 e o) = Wgu o e) (h3 : ∀ o, x3 (ix1 o) = sgu o) (h4 : ∀ o, x4 (ix1 o) = bgu o)
    (h5 : ∀ e o, x5 (ix2 e o) = Wgv o e) (h6 : ∀ o, x6 (ix1 o) = sgv o) (h7 : ∀ o, x7 (ix1 o) = bgv o)
    (h8 : ∀ e d, x8 (ix2 e d) = Wh d (lo e)) (h9 : ∀ e d, x9 (ix2 e d) = Wh d (hi e))
    (h10 : ∀ d, x10 (ix1 d) = sh d) (h11 : ∀ d, x11 (ix1 d) = bh d)
    (h12 : ∀ d c, x12 (ix2 d c) = Wf c d) (h13 : ∀ c, x13 (ix1 c) = sf c) (h14 : ∀ c, x14 (ix1 c) = bf c)
    (y : S1x64x256.Idx) :
    out0_15 (F := Ideal) x0 x1 x2 x3 x4 x5 x6 x7 x8 x9 x10 x11 x12 x13 x14 y
      = pointOut (XZ (y 2)) (FT (y 2)) Wgu sgu bgu Wgv sgv bgv Wh sh bh Wf sf bf (y 1) + x1 y := by
  have hy : y = ix3 (0 : Fin 1) (y 1) (y 2) := funext fun a => by
    match a with
    | ⟨0, _⟩ => exact Fin.ext (by show (y 0).val = 0; have : (y 0).val < 1 := (y 0).isLt; omega)
    | ⟨1, _⟩ => rfl
    | ⟨2, _⟩ => rfl
  have h := out_apply x0 x1 x2 x3 x4 x5 x6 x7 x8 x9 x10 x11 x12 x13 x14 XZ FT Wgu sgu bgu Wgv sgv bgv Wh sh bh Wf sf bf
    h0x h0f h2 h3 h4 h5 h6 h7 h8 h9 h10 h11 h12 h13 h14 (y 1) (y 2)
  exact (congrArg (out0_15 (F := Ideal) x0 x1 x2 x3 x4 x5 x6 x7 x8 x9 x10 x11 x12 x13 x14) hy).trans
    (h.trans (congrArg (fun z => pointOut (XZ (y 2)) (FT (y 2)) Wgu sgu bgu Wgv sgv bgv Wh sh bh Wf sf bf (y 1) + x1 z) hy.symm))

/-- WHAT POINT t WRITES BACK is block t of `result`. -/
theorem flushed_eq (c : Dev nD) (t : Fin cfg0.N) :
    (dats m 0 c).flushed 15 t = ((cfg0.win 15).blk t).view.read (Elt Ideal) (result m c) := by
  rw [Value.flushed15]
  funext y
  show out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
    = result m c (((cfg0.win 15).blk t).view.emb y)
  obtain ⟨-, -, -, -, -, -, e6, e7, e8⟩ := idx_rel t
  have hE0 : ((cfg0.win 15).blk t).view.emb y 0 = (⟨win0_15.index t (0 : Fin 3), e7⟩ : Fin 4) :=
    Fin.ext (by
      show win0_15.index t (0 : Fin 3) * 1 + 1 * (y 0).val = win0_15.index t (0 : Fin 3)
      have : (y 0).val < 1 := (y 0).isLt
      omega)
  have hE1 : ((cfg0.win 15).blk t).view.emb y 1 = (⟨(y 1).val, (y 1).isLt⟩ : Fin 64) :=
    Fin.ext (by
      show win0_15.index t (1 : Fin 3) * 64 + 1 * (y 1).val = (y 1).val
      omega)
  have hy2 : (y 2).val < 256 := (y 2).isLt
  have hE2 : ((cfg0.win 15).blk t).view.emb y 2
      = (⟨win0_15.index t (2 : Fin 3) * 256 + (y 2).val, by omega⟩ : Fin 4096) :=
    Fin.ext (by
      show win0_15.index t (2 : Fin 3) * 256 + 1 * (y 2).val = win0_15.index t (2 : Fin 3) * 256 + (y 2).val
      omega)
  refine (out_at_idx (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    (fun j k e => RX m c (ix4 (⟨win0_15.index t (0 : Fin 3), e7⟩ : Fin 4)
      (⟨win0_15.index t (2 : Fin 3) * 256 + j.val, by have := j.isLt; omega⟩ : Fin 4096) k e))
    (fun j k e => RF m c (ix4 (⟨win0_15.index t (0 : Fin 3), e7⟩ : Fin 4)
      (⟨win0_15.index t (2 : Fin 3) * 256 + j.val, by have := j.isLt; omega⟩ : Fin 4096) k e))
    (fun o e => ((m ((c : Thread nD τ).loc main_arg3)) : S64x6.Idx → EReal) (ix2 o e)) (fun o => ((m ((c : Thread nD τ).loc main_arg4)) : S64.Idx → EReal) (ix1 o))
    (fun o => ((m ((c : Thread nD τ).loc main_arg5)) : S64.Idx → EReal) (ix1 o))
    (fun o e => ((m ((c : Thread nD τ).loc main_arg6)) : S64x64.Idx → EReal) (ix2 o e)) (fun o => ((m ((c : Thread nD τ).loc main_arg7)) : S64.Idx → EReal) (ix1 o))
    (fun o => ((m ((c : Thread nD τ).loc main_arg8)) : S64.Idx → EReal) (ix1 o))
    (fun d e => ((m ((c : Thread nD τ).loc main_arg9)) : S128x128.Idx → EReal) (ix2 d e)) (fun d => ((m ((c : Thread nD τ).loc main_arg10)) : S128.Idx → EReal) (ix1 d))
    (fun d => ((m ((c : Thread nD τ).loc main_arg11)) : S128.Idx → EReal) (ix1 d))
    (fun o d => ((m ((c : Thread nD τ).loc main_arg12)) : S64x128.Idx → EReal) (ix2 o d)) (fun o => ((m ((c : Thread nD τ).loc main_arg13)) : S64.Idx → EReal) (ix1 o))
    (fun o => ((m ((c : Thread nD τ).loc main_arg14)) : S64.Idx → EReal) (ix1 o))
    ?_ ?_ ?_ ?_ ?_ ?_ ?_ ?_ ?_ ?_ ?_ ?_ ?_ ?_ ?_ y).trans ?_
  · intro j k e
    rw [iblk0_apply m c t (ix3 (0 : Fin 1) (row j k) (colX e))
      (ix3 (⟨win0_15.index t (0 : Fin 3), e7⟩ : Fin 4)
        (⟨win0_15.index t (2 : Fin 3) * 8192 + (row j k).val, by have := (row j k).isLt; omega⟩ : Fin 131072) (colX e))
      rfl rfl rfl]
    exact rel_x m c _ _ k e _ (by
      show win0_15.index t (2 : Fin 3) * 8192 + (j.val * 32 + k.val) = (win0_15.index t (2 : Fin 3) * 256 + j.val) * 32 + k.val
      omega)
  · intro j k e
    rw [iblk0_apply m c t (ix3 (0 : Fin 1) (row j k) (colF e))
      (ix3 (⟨win0_15.index t (0 : Fin 3), e7⟩ : Fin 4)
        (⟨win0_15.index t (2 : Fin 3) * 8192 + (row j k).val, by have := (row j k).isLt; omega⟩ : Fin 131072) (colF e))
      rfl rfl rfl]
    exact rel_f m c _ _ k e _ (by
      show win0_15.index t (2 : Fin 3) * 8192 + (j.val * 32 + k.val) = (win0_15.index t (2 : Fin 3) * 256 + j.val) * 32 + k.val
      omega)
  · intro e o; rw [iblk2_apply]; exact wgu_at m c e o
  · intro o; rw [iblk3_apply, V_main_arg4]
  · intro o; rw [iblk4_apply, V_main_arg5]
  · intro e o; rw [iblk5_apply]; exact wgv_at m c e o
  · intro o; rw [iblk6_apply, V_main_arg7]
  · intro o; rw [iblk7_apply, V_main_arg8]
  · intro e d; rw [iblk8_apply]; exact wh1_at m c e d
  · intro e d; rw [iblk9_apply]; exact wh2_at m c e d
  · intro d; rw [iblk10_apply, V_main_arg10]
  · intro d; rw [iblk11_apply, V_main_arg11]
  · intro d o; rw [iblk12_apply]; exact wf_at m c d o
  · intro o; rw [iblk13_apply, V_main_arg13]
  · intro o; rw [iblk14_apply, V_main_arg14]
  · rw [iblk1_apply, V_main_arg1]
    exact (G_apply (RX m c) (RF m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg1))
      (((cfg0.win 15).blk t).view.emb y) _ _ _ hE0 hE1 hE2).symm

/-- The 64 output blocks tile the result array: entry (b, c, p) is in the block of point (b, p / 256). -/
theorem cover (i : S4x64x4096.Idx) :
    ∃ t : Fin cfg0.N, (cfg0.win 15).flush t = true ∧ i ∈ ((cfg0.win 15).blk t).view.set := by
  have h0 : (i 0).val < 4 := (i 0).isLt
  have h1 : (i 1).val < 64 := (i 1).isLt
  have h2 : (i 2).val < 4096 := (i 2).isLt
  obtain ⟨t, ht⟩ := idx_onto ⟨(i 0).val, h0⟩ ⟨(i 2).val / 256, by omega⟩
  have q0 : win0_15.index t (0 : Fin 3) = (i 0).val := congrFun ht 0
  have q1 : win0_15.index t (1 : Fin 3) = 0 := congrFun ht 1
  have q2 : win0_15.index t (2 : Fin 3) = (i 2).val / 256 := congrFun ht 2
  refine ⟨t, flush0_15 t, ?_⟩
  show i ∈ ((View.whole main_v30).slice (win0_15.rect t)).set
  rw [View.set_slice_whole, Rect.mem_set_unit]
  intro a
  match a with
  | ⟨0, _⟩ =>
    show win0_15.index t (0 : Fin 3) * 1 ≤ (i 0).val ∧ (i 0).val < win0_15.index t (0 : Fin 3) * 1 + 1
    omega
  | ⟨1, _⟩ =>
    show win0_15.index t (1 : Fin 3) * 64 ≤ (i 1).val ∧ (i 1).val < win0_15.index t (1 : Fin 3) * 64 + 64
    omega
  | ⟨2, _⟩ =>
    show win0_15.index t (2 : Fin 3) * 256 ≤ (i 2).val ∧ (i 2).val < win0_15.index t (2 : Fin 3) * 256 + 256
    omega

/-- So the result array ends holding `result`. -/
theorem final (c : Dev nD) : (dats m 0 c).arrAt 15 cfg0.N = result m c :=
  (dats m 0 c).arrAt_eq_of_cover 15 (result m c) (fun t _ => flushed_eq m c t) cover

/-- The kernel's run: both returned arrays named, the arguments unchanged. -/
theorem run : θ_run defs (onTc (τ := τ) (main (F := Ideal))) ⟨m, fun _ => 0, ρ⟩ fun r => ∀ c : Dev nD,
      r.2.mem ((c : Thread nD τ).loc main_arg0) = m ((c : Thread nD τ).loc main_arg0)
      ∧ r.2.mem ((c : Thread nD τ).loc main_v30) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).2.1, (h c).1.trans (final m c), (h c).2⟩) (Value.run_blocks m ρ)

end Cert.KernelIdeal.Blocks

end
-- ==== Proof.Ref.lean ====
/-
  The reference, stage by stage, is the per-point function of Spec.lean.

  The reference keeps every intermediate as a rank-4 array [batch, point, neighbour, unit]. Each shared layer is
  a contraction of the last axis with a weight matrix, a scale and a shift spread over the leading axes, and a
  maximum with zero; read at one entry it is `act` of a finite sum. The fused layer contracts the 128-wide join of
  the two branches: its sum is cut into the two halves (`sum_halves`), the first read in the geometric branch and the
  second in the feature branch. The mean is the sum over the neighbour axis, started from zero, divided by 32.
-/
import proofs.«165472_j48026324303943_2_alg».proof.Proof.Gen.ReferenceIdeal.Read
import proofs.«165472_j48026324303943_2_alg».proof.Proof.Layers

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Cert.Srn

/-! ## The index maps of the stages, at coordinates -/

section Idx
variable (b : Fin 4) (p : Fin 4096) (k : Fin 32)

theorem lidx21 (o : Fin 64) (e : Fin 6) : lidx_main_v21 (ix4 b p k o) e = ix4 b p k e :=
  funext fun a => Fin.ext (by match a with | ⟨0, _⟩ => rfl | ⟨1, _⟩ => rfl | ⟨2, _⟩ => rfl | ⟨3, _⟩ => rfl)
theorem ridx21 (o : Fin 64) (e : Fin 6) : ridx_main_v21 (ix4 b p k o) e = ix2 o e :=
  funext fun a => Fin.ext (by match a with | ⟨0, _⟩ => rfl | ⟨1, _⟩ => rfl)
theorem idx23 (o : Fin 64) : idx_main_v22 (idx_main_v23 (ix4 b p k o)) = ix1 o :=
  funext fun a => Fin.ext (by match a with | ⟨0, _⟩ => rfl)
theorem idx26 (o : Fin 64) : idx_main_v25 (idx_main_v26 (ix4 b p k o)) = ix1 o :=
  funext fun a => Fin.ext (by match a with | ⟨0, _⟩ => rfl)
theorem lidx29 (o : Fin 64) (e : Fin 64) : lidx_main_v29 (ix4 b p k o) e = ix4 b p k e :=
  funext fun a => Fin.ext (by match a with | ⟨0, _⟩ => rfl | ⟨1, _⟩ => rfl | ⟨2, _⟩ => rfl | ⟨3, _⟩ => rfl)
theorem ridx29 (o : Fin 64) (e : Fin 64) : ridx_main_v29 (ix4 b p k o) e = ix2 o e :=
  funext fun a => Fin.ext (by match a with | ⟨0, _⟩ => rfl | ⟨1, _⟩ => rfl)
theorem idx31 (o : Fin 64) : idx_main_v30 (idx_main_v31 (ix4 b p k o)) = ix1 o :=
  funext fun a => Fin.ext (by match a with | ⟨0, _⟩ => rfl)
theorem idx34 (o : Fin 64) : idx_main_v33 (idx_main_v34 (ix4 b p k o)) = ix1 o :=
  funext fun a => Fin.ext (by match a with | ⟨0, _⟩ => rfl)
theorem lidx38 (d : Fin 128) (e : Fin 128) : lidx_main_v38 (ix4 b p k d) e = ix4 b p k e :=
  funext fun a => Fin.ext (by match a with | ⟨0, _⟩ => rfl | ⟨1, _⟩ => rfl | ⟨2, _⟩ => rfl | ⟨3, _⟩ => rfl)
theorem ridx38 (d : Fin 128) (e : Fin 128) : ridx_main_v38 (ix4 b p k d) e = ix2 d e :=
  funext fun a => Fin.ext (by match a with | ⟨0, _⟩ => rfl | ⟨1, _⟩ => rfl)
theorem idx40 (d : Fin 128) : idx_main_v39 (idx_main_v40 (ix4 b p k d)) = ix1 d :=
  funext fun a => Fin.ext (by match a with | ⟨0, _⟩ => rfl)
theorem idx43 (d : Fin 128) : idx_main_v42 (idx_main_v43 (ix4 b p k d)) = ix1 d :=
  funext fun a => Fin.ext (by match a with | ⟨0, _⟩ => rfl)
theorem idx46 (d : Fin 128) : idx_main_v46 (ix3 b p d) k = ix4 b p k d :=
  funext fun a => Fin.ext (by match a with | ⟨0, _⟩ => rfl | ⟨1, _⟩ => rfl | ⟨2, _⟩ => rfl | ⟨3, _⟩ => rfl)
theorem lidx49 (c : Fin 64) (d : Fin 128) : lidx_main_v49 (ix3 b p c) d = ix3 b p d :=
  funext fun a => Fin.ext (by match a with | ⟨0, _⟩ => rfl | ⟨1, _⟩ => rfl | ⟨2, _⟩ => rfl)
theorem ridx49 (c : Fin 64) (d : Fin 128) : ridx_main_v49 (ix3 b p c) d = ix2 c d :=
  funext fun a => Fin.ext (by match a with | ⟨0, _⟩ => rfl | ⟨1, _⟩ => rfl)
theorem idx51 (c : Fin 64) : idx_main_v50 (idx_main_v51 (ix3 b p c)) = ix1 c :=
  funext fun a => Fin.ext (by match a with | ⟨0, _⟩ => rfl)
theorem idx54 (c : Fin 64) : idx_main_v53 (idx_main_v54 (ix3 b p c)) = ix1 c :=
  funext fun a => Fin.ext (by match a with | ⟨0, _⟩ => rfl)
theorem idx57 (c : Fin 64) : idx_main_v57 (ix3 b c p) = ix3 b p c :=
  funext fun a => Fin.ext (by match a with | ⟨0, _⟩ => rfl | ⟨1, _⟩ => rfl | ⟨2, _⟩ => rfl)

end Idx

/-! ## The stages -/

section Stages

variable (x0 : (⟨S4x4096x3, .f32⟩ : BufTy).Contents (Elt Ideal)) (x1 : (⟨S4x64x4096, .f32⟩ : BufTy).Contents (Elt Ideal)) (x2 : (⟨S4096x32, .i32⟩ : BufTy).Contents (Elt Ideal))
  (x3 : (⟨S64x6, .f32⟩ : BufTy).Contents (Elt Ideal)) (x4 x5 : (⟨S64, .f32⟩ : BufTy).Contents (Elt Ideal))
  (x6 : (⟨S64x64, .f32⟩ : BufTy).Contents (Elt Ideal)) (x7 x8 : (⟨S64, .f32⟩ : BufTy).Contents (Elt Ideal))
  (x9 : (⟨S128x128, .f32⟩ : BufTy).Contents (Elt Ideal)) (x10 x11 : (⟨S128, .f32⟩ : BufTy).Contents (Elt Ideal))
  (x12 : (⟨S64x128, .f32⟩ : BufTy).Contents (Elt Ideal)) (x13 x14 : (⟨S64, .f32⟩ : BufTy).Contents (Elt Ideal))
  (b : Fin 4) (p : Fin 4096)

/-- The relation tensor's geometric part at one point: neighbour k, column e. -/
abbrev XZ : Fin 32 → Fin 6 → EReal := fun k e => val_main_v17 (F := Ideal) x0 x2 (ix4 b p k e)
/-- Its feature part. -/
abbrev FT : Fin 32 → Fin 64 → EReal := fun k e => val_main_v20 (F := Ideal) x1 x2 (ix4 b p k e)

/-- The geometric branch at (b, p, k, o). -/
theorem geo_at (k : Fin 32) (o : Fin 64) :
    val_main_v28 (F := Ideal) x0 x2 x3 x4 x5 (ix4 b p k o)
      = geo (XZ x0 x2 b p) (fun o e => x3 (ix2 o e)) (fun o => x4 (ix1 o)) (fun o => x5 (ix1 o)) k o := by
  rw [val_main_v28_apply, val_main_v27_apply, val_main_v24_apply, val_main_v21_apply, val_main_v23_apply,
    val_main_v22_apply, val_main_v26_apply, val_main_v25_apply, val_main_call0_v0_apply, val_main_call0_cst_apply]
  simp only [lidx21, ridx21, idx23, idx26]
  rfl

/-- The feature branch at (b, p, k, o). -/
theorem sem_at (k : Fin 32) (o : Fin 64) :
    val_main_v36 (F := Ideal) x1 x2 x6 x7 x8 (ix4 b p k o)
      = sem (FT x1 x2 b p) (fun o e => x6 (ix2 o e)) (fun o => x7 (ix1 o)) (fun o => x8 (ix1 o)) k o := by
  rw [val_main_v36_apply, val_main_v35_apply, val_main_v32_apply, val_main_v29_apply, val_main_v31_apply,
    val_main_v30_apply, val_main_v34_apply, val_main_v33_apply, val_main_call1_v0_apply, val_main_call1_cst_apply]
  simp only [lidx29, ridx29, idx31, idx34]
  rfl

/-- The join of the two branches, read in its first half: the geometric branch. -/
theorem fuse_lo (k : Fin 32) (e : Fin 64) :
    val_main_v37 (F := Ideal) x0 x1 x2 x3 x4 x5 x6 x7 x8 (ix4 b p k (lo e))
      = val_main_v28 (F := Ideal) x0 x2 x3 x4 x5 (ix4 b p k e) := by
  unfold val_main_v37
  exact concat4_left _ _ _ b p k e (lo e) rfl

/-- … and in its second half: the feature branch. -/
theorem fuse_hi (k : Fin 32) (e : Fin 64) :
    val_main_v37 (F := Ideal) x0 x1 x2 x3 x4 x5 x6 x7 x8 (ix4 b p k (hi e))
      = val_main_v36 (F := Ideal) x1 x2 x6 x7 x8 (ix4 b p k e) := by
  unfold val_main_v37
  exact concat4_right _ _ _ b p k e (hi e) rfl

/-- The fused layer at (b, p, k, d). -/
theorem hid_at (k : Fin 32) (d : Fin 128) :
    val_main_v45 (F := Ideal) x0 x1 x2 x3 x4 x5 x6 x7 x8 x9 x10 x11 (ix4 b p k d)
      = hid (XZ x0 x2 b p) (FT x1 x2 b p) (fun o e => x3 (ix2 o e)) (fun o => x4 (ix1 o)) (fun o => x5 (ix1 o))
          (fun o e => x6 (ix2 o e)) (fun o => x7 (ix1 o)) (fun o => x8 (ix1 o))
          (fun d e => x9 (ix2 d e)) (fun d => x10 (ix1 d)) (fun d => x11 (ix1 d)) k d := by
  rw [val_main_v45_apply, val_main_v44_apply, val_main_v41_apply, val_main_v38_apply, val_main_v40_apply,
    val_main_v39_apply, val_main_v43_apply, val_main_v42_apply, val_main_call2_v0_apply, val_main_call2_cst_apply]
  simp only [lidx38, ridx38, idx40, idx43]
  rw [sum_halves]
  simp only [fuse_lo, fuse_hi, geo_at, sem_at]
  rfl

/-- The mean over the neighbours at (b, p, d). -/
theorem pooled_at (d : Fin 128) :
    val_main_v48 (F := Ideal) x0 x1 x2 x3 x4 x5 x6 x7 x8 x9 x10 x11 (ix3 b p d)
      = pooled (XZ x0 x2 b p) (FT x1 x2 b p) (fun o e => x3 (ix2 o e)) (fun o => x4 (ix1 o)) (fun o => x5 (ix1 o))
          (fun o e => x6 (ix2 o e)) (fun o => x7 (ix1 o)) (fun o => x8 (ix1 o))
          (fun d e => x9 (ix2 d e)) (fun d => x10 (ix1 d)) (fun d => x11 (ix1 d)) d := by
  rw [val_main_v48_apply, val_main_v46_apply, val_main_v47_apply, val_main_cst_3_apply, val_main_cst_apply]
  simp only [idx46, hid_at]
  show Ideal.div (Ideal.ofBits .f32 0x00000000#32 + _) _ = _
  rw [Ideal.ofBits_zero_f32, zero_add]
  rfl

/-- The last layer at (b, p, c). -/
theorem out_at (c : Fin 64) :
    val_main_v56 (F := Ideal) x0 x1 x2 x3 x4 x5 x6 x7 x8 x9 x10 x11 x12 x13 x14 (ix3 b p c)
      = pointOut (XZ x0 x2 b p) (FT x1 x2 b p) (fun o e => x3 (ix2 o e)) (fun o => x4 (ix1 o)) (fun o => x5 (ix1 o))
          (fun o e => x6 (ix2 o e)) (fun o => x7 (ix1 o)) (fun o => x8 (ix1 o))
          (fun d e => x9 (ix2 d e)) (fun d => x10 (ix1 d)) (fun d => x11 (ix1 d))
          (fun c d => x12 (ix2 c d)) (fun c => x13 (ix1 c)) (fun c => x14 (ix1 c)) c := by
  rw [val_main_v56_apply, val_main_v55_apply, val_main_v52_apply, val_main_v49_apply, val_main_v51_apply,
    val_main_v50_apply, val_main_v54_apply, val_main_v53_apply, val_main_call3_v0_apply, val_main_call3_cst_apply]
  simp only [lidx49, ridx49, idx51, idx54, pooled_at]
  rfl

end Stages

/-- THE REFERENCE'S RESULT is `G` of the relation tensor's two parts, the weights and the features. -/
theorem result_eq (x0 : (⟨S4x4096x3, .f32⟩ : BufTy).Contents (Elt Ideal)) (x1 : (⟨S4x64x4096, .f32⟩ : BufTy).Contents (Elt Ideal)) (x2 : (⟨S4096x32, .i32⟩ : BufTy).Contents (Elt Ideal))
    (x3 : (⟨S64x6, .f32⟩ : BufTy).Contents (Elt Ideal)) (x4 x5 : (⟨S64, .f32⟩ : BufTy).Contents (Elt Ideal))
    (x6 : (⟨S64x64, .f32⟩ : BufTy).Contents (Elt Ideal)) (x7 x8 : (⟨S64, .f32⟩ : BufTy).Contents (Elt Ideal))
    (x9 : (⟨S128x128, .f32⟩ : BufTy).Contents (Elt Ideal)) (x10 x11 : (⟨S128, .f32⟩ : BufTy).Contents (Elt Ideal))
    (x12 : (⟨S64x128, .f32⟩ : BufTy).Contents (Elt Ideal)) (x13 x14 : (⟨S64, .f32⟩ : BufTy).Contents (Elt Ideal)) :
    val_main_v58 (F := Ideal) x0 x1 x2 x3 x4 x5 x6 x7 x8 x9 x10 x11 x12 x13 x14
      = G (val_main_v17 (F := Ideal) x0 x2) (val_main_v20 (F := Ideal) x1 x2) x3 x4 x5 x6 x7 x8 x9 x10 x11 x12 x13 x14 x1 := by
  funext i
  obtain ⟨b, c, p, rfl⟩ : ∃ (b : Fin 4) (c : Fin 64) (p : Fin 4096), i = ix3 b c p := ⟨i 0, i 1, i 2, eq_ix3 i⟩
  rw [val_main_v58_apply, val_main_v57_apply, idx57, out_at]
  rfl

end Cert.ReferenceIdeal.RefValue

end
-- ==== Proof.lean ====
/-
  A point-cloud layer: for every point, its 32 neighbours' relation rows go through two small shared layers (a
  geometric one and a feature one), a fused shared layer over the two results side by side, a mean over the
  neighbours, and a last shared layer; the input features are added back.

  The kernel tiles the points (256 to a grid point), works on the relation rows as one 8192-row matrix per tile,
  computes the fused layer as the sum of two products (one per branch) instead of one product with the joined
  rows, and writes its result already transposed. The reference keeps rank-4 arrays and one product per layer.
  On the extended reals the two are one function, `Cert.Srn.G` (Proof/Spec.lean), of the relation tensor, the
  weights and the features: format changes are the identity, every product is a finite sum of products, and the
  one algebraic step — a sum over 128 columns is the sum over the first 64 plus the sum over the last 64 — uses
  only that addition is commutative and associative, so no finiteness of the inputs is used.

  Proof/Body.lean reads one run of the kernel body entry by entry; Proof/Blocks.lean reads the windows' blocks off
  the arrays the host prepares and carries the blocks to the whole result array; Proof/Ref.lean reads the
  reference stage by stage. Here the five claims are assembled.
-/
import proofs.«165472_j48026324303943_2_alg».proof.Defs
import proofs.«165472_j48026324303943_2_alg».proof.Proof.Gen.Kernel
import proofs.«165472_j48026324303943_2_alg».proof.Proof.Gen.Kernel.Skeleton
import proofs.«165472_j48026324303943_2_alg».proof.Proof.Gen.Kernel.Launch
import proofs.«165472_j48026324303943_2_alg».proof.Proof.Gen.Kernel.Points
import proofs.«165472_j48026324303943_2_alg».proof.Proof.Gen.Kernel.Frame
import proofs.«165472_j48026324303943_2_alg».proof.Proof.Gen.KernelIdeal
import proofs.«165472_j48026324303943_2_alg».proof.Proof.Gen.KernelIdeal.Skeleton
import proofs.«165472_j48026324303943_2_alg».proof.Proof.Gen.KernelIdeal.Launch
import proofs.«165472_j48026324303943_2_alg».proof.Proof.Gen.KernelIdeal.Points
import proofs.«165472_j48026324303943_2_alg».proof.Proof.Gen.KernelIdeal.Frame
import proofs.«165472_j48026324303943_2_alg».proof.Proof.Gen.ReferenceIdeal
import proofs.«165472_j48026324303943_2_alg».proof.Proof.Gen.Pre_finite_inputs
import proofs.«165472_j48026324303943_2_alg».proof.Proof.Gen.KernelIdeal.Value
import proofs.«165472_j48026324303943_2_alg».proof.Proof.Gen.ReferenceIdeal.Run
import proofs.«165472_j48026324303943_2_alg».proof.Proof.Gen.ReferenceIdeal.Read
import proofs.«165472_j48026324303943_2_alg».proof.Proof.Blocks
import proofs.«165472_j48026324303943_2_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The kernel's result array ends at `G` of its memory's arguments (Blocks.lean), the reference's at `G` of its
    own (Ref.lean); the memories agree on the arguments. The first returned array is the first argument on both
    sides. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.KernelIdeal.Blocks.result m c, Cert.KernelIdeal.Blocks.run m ρ, ?_⟩
  refine (θ_run Cert.ReferenceIdeal.defs _ _).mono
    (fun _ h c => ⟨(h c).1.trans (hagree c).1, (h c).2.1.trans ?_, (h c).2.2⟩)
    (Cert.ReferenceIdeal.Value.run (F := Ideal) m' ρ')
  rw [Cert.ReferenceIdeal.Read.val_main_v58_eq, Cert.ReferenceIdeal.RefValue.result_eq]
  obtain ⟨a0, a1, a2, a3, a4, a5, a6, a7, a8, a9, a10, a11, a12, a13, a14⟩ := hagree c
  rw [a0, a1, a2, a3, a4, a5, a6, a7, a8, a9, a10, a11, a12, a13, a14]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
